-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def frame_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    frame_Kernel (hKernel := hKernel)
    ∧ frame_KernelIdeal (hKernelIdeal := hKernelIdeal)
    ∧ frame_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8388608 : Shape := ⟨1, ![8388608]⟩
abbrev S65536x128 : Shape := ⟨2, ![65536, 128]⟩
abbrev S4096x128 : Shape := ⟨2, ![4096, 128]⟩
abbrev S_ : Shape := ⟨0, ![]⟩
abbrev S8388608x1 : Shape := ⟨2, ![8388608, 1]⟩

abbrev nBuf : Space → Nat
  | .hbm => 31
  | .vmem => 12
  | .smem => 0
  | _ => 0

abbrev bufTy : (tb : Table) → Fin (tcTables nBuf tb) → BufTy
  | .hbm, ⟨0, _⟩ => ⟨S8388608, .i32⟩
  | .hbm, ⟨1, _⟩ => ⟨S8388608, .i32⟩
  | .hbm, ⟨2, _⟩ => ⟨S8388608, .i32⟩
  | .hbm, ⟨3, _⟩ => ⟨S65536x128, .i32⟩
  | .hbm, ⟨4, _⟩ => ⟨S65536x128, .i32⟩
  | .hbm, ⟨5, _⟩ => ⟨S8388608, .i32⟩
  | .hbm, ⟨6, _⟩ => ⟨S_, .i32⟩
  | .hbm, ⟨7, _⟩ => ⟨S_, .i32⟩
  | .hbm, ⟨8, _⟩ => ⟨S8388608, .i32⟩
  | .hbm, ⟨9, _⟩ => ⟨S8388608, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S8388608, .i32⟩
  | .hbm, ⟨14, _⟩ => ⟨S8388608, .i32⟩
  | .hbm, ⟨15, _⟩ => ⟨S_, .i32⟩
  | .hbm, ⟨16, _⟩ => ⟨S8388608, .i32⟩
  | .hbm, ⟨17, _⟩ => ⟨S8388608, .i32⟩
  | .hbm, ⟨18, _⟩ => ⟨S_, .i32⟩
  | .hbm, ⟨19, _⟩ => ⟨S8388608, .i32⟩
  | .hbm, ⟨20, _⟩ => ⟨S8388608, .i1⟩
  | .hbm, ⟨21, _⟩ => ⟨S_, .i32⟩
  | .hbm, ⟨22, _⟩ => ⟨S8388608, .i32⟩
  | .hbm, ⟨23, _⟩ => ⟨S8388608, .i32⟩
  | .hbm, ⟨24, _⟩ => ⟨S8388608, .i32⟩
  | .hbm, ⟨25, _⟩ => ⟨S8388608x1, .i32⟩
  | .hbm, ⟨26, _⟩ => ⟨S8388608, .i32⟩
  | .hbm, ⟨27, _⟩ => ⟨S65536x128, .i32⟩
  | .hbm, ⟨28, _⟩ => ⟨S65536x128, .i32⟩
  | .hbm, ⟨29, _⟩ => ⟨S65536x128, .i32⟩
  | .hbm, ⟨30, _⟩ => ⟨S8388608, .i32⟩
  | .local _ .vmem, ⟨0, _⟩ => ⟨S4096x128, .i32⟩
  | .local _ .vmem, ⟨1, _⟩ => ⟨S4096x128, .i32⟩
  | .local _ .vmem, ⟨2, _⟩ => ⟨S4096x128, .i32⟩
  | .local _ .vmem, ⟨3, _⟩ => ⟨S4096x128, .i32⟩
  | .local _ .vmem, ⟨4, _⟩ => ⟨S4096x128, .i32⟩
  | .local _ .vmem, ⟨5, _⟩ => ⟨S4096x128, .i32⟩
  | .local _ .vmem, ⟨6, _⟩ => ⟨S4096x128, .i32⟩
  | .local _ .vmem, ⟨7, _⟩ => ⟨S4096x128, .i32⟩
  | .local _ .vmem, ⟨8, _⟩ => ⟨S4096x128, .i32⟩
  | .local _ .vmem, ⟨9, _⟩ => ⟨S4096x128, .i32⟩
  | .local _ .vmem, ⟨10, _⟩ => ⟨S4096x128, .i32⟩
  | .local _ .vmem, ⟨11, _⟩ => ⟨S4096x128, .i32⟩
  | _, _ => ⟨S8388608, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_c_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S8388608_S65536x128 : S8388608.ShapeCasts S65536x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  natLt_1_32 : 1 < 32
  shapeCasts_S65536x128_S8388608 : S65536x128.ShapeCasts S8388608
  bcast_S_S_ : S_.BroadcastsInDim S_ (![] : Fin 0 → Fin S_.rank)
  reduceWindows_S8388608_S8388608_w8388608s1p8388607_0 : S8388608.ReduceWindows (![8388608] : Fin 1 → Nat) ![1] ![8388607] ![0] S8388608
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  gather_S8388608_S8388608x1_S8388608_n_0_n_n_0_1_1_wf : GatherDims.WF S8388608 S8388608x1 S8388608 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .i32 = 32 ∨ (Rect.block (s := S65536x128) S4096x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .i32 = 32 ∨ (Rect.block (s := S65536x128) S4096x128.size (cc0_transform_1 i) (hinb0_1 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .i32 = 32 ∨ (Rect.block (s := S65536x128) S4096x128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S65536x128.size a
  hwx1_1 : ∀ i : grid1.Coords, EltTy.bits .i32 = 32 ∨ (Rect.block (s := S65536x128) S4096x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S65536x128.size a
  hwx1_2 : ∀ i : grid1.Coords, EltTy.bits .i32 = 32 ∨ (Rect.block (s := S65536x128) S4096x128.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S65536x128.size a
  hwx1_3 : ∀ i : grid1.Coords, EltTy.bits .i32 = 32 ∨ (Rect.block (s := S65536x128) S4096x128.size (cc1_transform_3 i) (hinb1_3 i)).WholeWords (EltTy.packing .i32)

variable [Facts₀]

def gather_S8388608_S8388608x1_S8388608_n_0_n_n_0_1_1 : GatherDims S8388608 S8388608x1 S8388608 where
  offsetDims := []
  collapsedSliceDims := [0]
  operandBatchingDims := []
  startIndicesBatchingDims := []
  startIndexMap := [0]
  indexVectorDim := 1
  sliceSizes := ![1]
  wf := gather_S8388608_S8388608x1_S8388608_n_0_n_n_0_1_1_wf

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8388608 : Shape := ⟨1, ![8388608]⟩
abbrev S_ : Shape := ⟨0, ![]⟩
abbrev S8388608x1 : Shape := ⟨2, ![8388608, 1]⟩

abbrev nBuf : Space → Nat
  | .hbm => 86
  | .vmem => 0
  | .smem => 0
  | _ => 0

abbrev bufTy : (tb : Table) → Fin (tcTables nBuf tb) → BufTy
  | .hbm, ⟨0, _⟩ => ⟨S8388608, .i32⟩
  | .hbm, ⟨1, _⟩ => ⟨S8388608, .i32⟩
  | .hbm, ⟨2, _⟩ => ⟨S8388608, .i32⟩
  | .hbm, ⟨3, _⟩ => ⟨S_, .i32⟩
  | .hbm, ⟨4, _⟩ => ⟨S8388608, .i32⟩
  | .hbm, ⟨5, _⟩ => ⟨S8388608, .i32⟩
  | .hbm, ⟨6, _⟩ => ⟨S_, .i32⟩
  | .hbm, ⟨7, _⟩ => ⟨S8388608, .i32⟩
  | .hbm, ⟨8, _⟩ => ⟨S8388608, .i32⟩
  | .hbm, ⟨9, _⟩ => ⟨S_, .i32⟩
  | .hbm, ⟨10, _⟩ => ⟨S8388608, .i32⟩
  | .hbm, ⟨11, _⟩ => ⟨S8388608, .i32⟩
  | .hbm, ⟨12, _⟩ => ⟨S_, .i32⟩
  | .hbm, ⟨13, _⟩ => ⟨S_, .i32⟩
  | .hbm, ⟨14, _⟩ => ⟨S8388608, .i32⟩
  | .hbm, ⟨15, _⟩ => ⟨S8388608, .i32⟩
  | .hbm, ⟨16, _⟩ => ⟨S8388608, .i32⟩
  | .hbm, ⟨17, _⟩ => ⟨S_, .i32⟩
  | .hbm, ⟨18, _⟩ => ⟨S8388608, .i32⟩
  | .hbm, ⟨19, _⟩ => ⟨S8388608, .i1⟩
  | .hbm, ⟨20, _⟩ => ⟨S8388608, .i32⟩
  | .hbm, ⟨21, _⟩ => ⟨S8388608, .i32⟩
  | .hbm, ⟨22, _⟩ => ⟨S_, .i32⟩
  | .hbm, ⟨23, _⟩ => ⟨S8388608, .i32⟩
  | .hbm, ⟨24, _⟩ => ⟨S8388608, .i1⟩
  | .hbm, ⟨25, _⟩ => ⟨S8388608, .i1⟩
  | .hbm, ⟨26, _⟩ => ⟨S_, .i32⟩
  | .hbm, ⟨27, _⟩ => ⟨S8388608, .i32⟩
  | .hbm, ⟨28, _⟩ => ⟨S8388608, .i32⟩
  | .hbm, ⟨29, _⟩ => ⟨S8388608, .i32⟩
  | .hbm, ⟨30, _⟩ => ⟨S_, .i32⟩
  | .hbm, ⟨31, _⟩ => ⟨S8388608, .i32⟩
  | .hbm, ⟨32, _⟩ => ⟨S8388608, .i32⟩
  | .hbm, ⟨33, _⟩ => ⟨S_, .i32⟩
  | .hbm, ⟨34, _⟩ => ⟨S8388608, .i32⟩
  | .hbm, ⟨35, _⟩ => ⟨S8388608, .i32⟩
  | .hbm, ⟨36, _⟩ => ⟨S_, .i32⟩
  | .hbm, ⟨37, _⟩ => ⟨S_, .i32⟩
  | .hbm, ⟨38, _⟩ => ⟨S8388608, .i32⟩
  | .hbm, ⟨39, _⟩ => ⟨S8388608, .i32⟩
  | .hbm, ⟨40, _⟩ => ⟨S8388608, .i32⟩
  | .hbm, ⟨41, _⟩ => ⟨S_, .i32⟩
  | .hbm, ⟨42, _⟩ => ⟨S8388608, .i32⟩
  | .hbm, ⟨43, _⟩ => ⟨S8388608, .i1⟩
  | .hbm, ⟨44, _⟩ => ⟨S8388608, .i32⟩
  | .hbm, ⟨45, _⟩ => ⟨S8388608, .i32⟩
  | .hbm, ⟨46, _⟩ => ⟨S_, .i32⟩
  | .hbm, ⟨47, _⟩ => ⟨S8388608, .i32⟩
  | .hbm, ⟨48, _⟩ => ⟨S8388608, .i1⟩
  | .hbm, ⟨49, _⟩ => ⟨S8388608, .i1⟩
  | .hbm, ⟨50, _⟩ => ⟨S_, .i32⟩
  | .hbm, ⟨51, _⟩ => ⟨S8388608, .i32⟩
  | .hbm, ⟨52, _⟩ => ⟨S8388608, .i32⟩
  | .hbm, ⟨53, _⟩ => ⟨S8388608, .i32⟩
  | .hbm, ⟨54, _⟩ => ⟨S8388608, .i32⟩
  | .hbm, ⟨55, _⟩ => ⟨S_, .i32⟩
  | .hbm, ⟨56, _⟩ => ⟨S_, .i32⟩
  | .hbm, ⟨57, _⟩ => ⟨S8388608, .i32⟩
  | .hbm, ⟨58, _⟩ => ⟨S8388608, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S8388608, .i32⟩
  | .hbm, ⟨63, _⟩ => ⟨S8388608, .i32⟩
  | .hbm, ⟨64, _⟩ => ⟨S_, .i32⟩
  | .hbm, ⟨65, _⟩ => ⟨S8388608, .i32⟩
  | .hbm, ⟨66, _⟩ => ⟨S8388608, .i32⟩
  | .hbm, ⟨67, _⟩ => ⟨S_, .i32⟩
  | .hbm, ⟨68, _⟩ => ⟨S8388608, .i32⟩
  | .hbm, ⟨69, _⟩ => ⟨S8388608, .i1⟩
  | .hbm, ⟨70, _⟩ => ⟨S_, .i32⟩
  | .hbm, ⟨71, _⟩ => ⟨S8388608, .i32⟩
  | .hbm, ⟨72, _⟩ => ⟨S8388608, .i32⟩
  | .hbm, ⟨73, _⟩ => ⟨S8388608, .i32⟩
  | .hbm, ⟨74, _⟩ => ⟨S8388608x1, .i32⟩
  | .hbm, ⟨75, _⟩ => ⟨S8388608, .i32⟩
  | .hbm, ⟨76, _⟩ => ⟨S_, .i32⟩
  | .hbm, ⟨77, _⟩ => ⟨S8388608, .i32⟩
  | .hbm, ⟨78, _⟩ => ⟨S8388608, .i1⟩
  | .hbm, ⟨79, _⟩ => ⟨S_, .i32⟩
  | .hbm, ⟨80, _⟩ => ⟨S8388608, .i32⟩
  | .hbm, ⟨81, _⟩ => ⟨S8388608, .i32⟩
  | .hbm, ⟨82, _⟩ => ⟨S_, .i32⟩
  | .hbm, ⟨83, _⟩ => ⟨S8388608, .i32⟩
  | .hbm, ⟨84, _⟩ => ⟨S8388608, .i32⟩
  | .hbm, ⟨85, _⟩ => ⟨S8388608, .i32⟩
  | _, _ => ⟨S8388608, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_c_3 : Ref sig .tc := ⟨.hbm, 30, rfl⟩
abbrev main_v7 : Ref sig .tc := ⟨.hbm, 31, rfl⟩
abbrev main_v8 : Ref sig .tc := ⟨.hbm, 32, rfl⟩
abbrev main_c_4 : Ref sig .tc := ⟨.hbm, 33, rfl⟩
abbrev main_v9 : Ref sig .tc := ⟨.hbm, 34, rfl⟩
abbrev main_v10 : Ref sig .tc := ⟨.hbm, 35, rfl⟩
abbrev main_c_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v11 : Ref sig .tc := ⟨.hbm, 53, rfl⟩
abbrev main_v12 : Ref sig .tc := ⟨.hbm, 54, rfl⟩
abbrev main_call2_call0_c : Ref sig .tc := ⟨.hbm, 55, rfl⟩
abbrev main_call2_call0_v0 : Ref sig .tc := ⟨.hbm, 56, rfl⟩
abbrev main_v13 : Ref sig .tc := ⟨.hbm, 57, rfl⟩
abbrev main_v14 : Ref sig .tc := ⟨.hbm, 58, rfl⟩
abbrev main_c_6 : Ref sig .tc := ⟨.hbm, 59, rfl⟩
abbrev main_c_7 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v15 : Ref sig .tc := ⟨.hbm, 66, rfl⟩
abbrev main_c_8 : Ref sig .tc := ⟨.hbm, 67, rfl⟩
abbrev main_v16 : Ref sig .tc := ⟨.hbm, 68, rfl⟩
abbrev main_v17 : Ref sig .tc := ⟨.hbm, 69, rfl⟩
abbrev main_c_9 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_c_10 : Ref sig .tc := ⟨.hbm, 76, rfl⟩
abbrev main_v23 : Ref sig .tc := ⟨.hbm, 77, rfl⟩
abbrev main_v24 : Ref sig .tc := ⟨.hbm, 78, rfl⟩
abbrev main_c_11 : Ref sig .tc := ⟨.hbm, 79, rfl⟩
abbrev main_v25 : Ref sig .tc := ⟨.hbm, 80, rfl⟩
abbrev main_v26 : Ref sig .tc := ⟨.hbm, 81, rfl⟩
abbrev main_c_12 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S_S_ : S_.BroadcastsInDim S_ (![] : Fin 0 → Fin S_.rank)
  reduceWindows_S8388608_S8388608_w8388608s1p8388607_0 : S8388608.ReduceWindows (![8388608] : Fin 1 → Nat) ![1] ![8388607] ![0] S8388608
  h_S_ : 0 < S_.numel
  bcast_S8388608_S8388608x1_0 : S8388608.BroadcastsInDim S8388608x1 (![0] : Fin 1 → Fin S8388608x1.rank)
  gather_S8388608_S8388608x1_S8388608_n_0_n_n_0_1_1_wf : GatherDims.WF S8388608 S8388608x1 S8388608 [] [0] [] [0] [] 1 ![1]

variable [Facts₀]

def gather_S8388608_S8388608x1_S8388608_n_0_n_n_0_1_1 : GatherDims S8388608 S8388608x1 S8388608 where
  offsetDims := []
  collapsedSliceDims := [0]
  operandBatchingDims := []
  startIndicesBatchingDims := []
  startIndexMap := [0]
  indexVectorDim := 1
  sliceSizes := ![1]
  wf := gather_S8388608_S8388608x1_S8388608_n_0_n_n_0_1_1_wf

class Facts : Prop extends Facts₀ where

variable [Facts]
-- ==== Proof.KernelRun.lean ====
/-
  The idealized kernel's run with its result buffer kept: every weakly fair execution of @main ends with the
  result array `main_v16` at the last boundary's contents `W9` — the fold of the host stretches and of the two
  regions' write-backs over the launch memory — and with the three argument arrays as launched.  The frame
  module states the same run and keeps only the arguments; here the result buffer is read off the same final
  thread state, which holds every unscoped buffer at `W9`.
-/
import proofs.«158260_j32212254720221_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last
    boundary's contents and the arguments end as launched. -/
theorem run_result : θ_run defs (onTc (τ := τ) (main (F := F))) ⟨m, fun _ => 0, ρ⟩ (fun r => ∀ c : Dev nD,
      r.2.mem ((c.tc : Thread nD τ).loc main_v16) = W9 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v16 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c)⟩)

end Cert.KernelIdeal.RunValue

end
-- ==== Proof.PageArith.lean ====
/-
  The 32-bit arithmetic of the page allocator, one request at a time.

  A request of length `s` needs a new page exactly when the number of pages covering `s` tokens exceeds the
  number covering `s - 1`: `newPages s = ⌊(s + 15) / 16⌋ - ⌊(s - 1 + 15) / 16⌋`, every operation the wrapping
  two's-complement one on 32-bit words, the floor division spelt as the quotient rounded toward zero, lowered
  by one when the signs of dividend and divisor differ and the remainder is not zero.  Two spellings of it
  meet here: one takes the dividend's sign as `(0 < x) - (x < 0)` on words and adds the constant `15`; the
  other takes the sign as `-1 / 0 / 1` by cases and adds `16` then subtracts `1`.  They are one function
  (`newPagesHost_eq`): the two signs agree on every word, `x + 16 - 1 = x + 15` in wrapping arithmetic, and a
  division by `16` is never at a corner (the divisor is neither `0` nor `-1`), so every unit's quotient and
  remainder are the plain signed ones.

  The output entry is `last + 1` when no new page is needed and `16 · page` otherwise (`outLoc`).
-/
import Idealize.ShloMosaic.PureOps

namespace Cert.PageArith

open Idealize.ShloMosaic

/-- The sign of a word as `(0 < x) - (x < 0)`, each comparison a bit widened to a word. -/
def signCmp (x : BitVec 32) : BitVec 32 :=
  IntOp.subi ((IntOp.cmpi .sgt x 0#32).setWidth 32) ((IntOp.cmpi .slt x 0#32).setWidth 32)

/-- The sign of a word by cases: `0` at zero, `-1` when the top bit is set, `1` otherwise. -/
def signCases (x : BitVec 32) : BitVec 32 := if x = 0 then 0 else if x.msb then -1 else 1

theorem signCmp_eq_signCases (x : BitVec 32) : signCmp x = signCases x := by
  unfold signCmp signCases IntOp.subi IntOp.cmpi
  dsimp only
  by_cases h0 : x = 0
  · subst h0; decide
  · rw [if_neg h0]
    have hne : x.toInt ≠ 0 := fun h => h0 (BitVec.eq_of_toInt_eq (by rw [h]; decide))
    by_cases hm : x.msb = true
    · rw [if_pos hm]
      have hneg : x.toInt < 0 := by rw [BitVec.msb_eq_toInt] at hm; simpa using hm
      have h1 : x.slt 0#32 = true := by rw [BitVec.slt_zero_eq_msb]; exact hm
      have h2 : (0#32).slt x = false := by
        rw [BitVec.slt_eq_decide, BitVec.toInt_zero]; simp only [decide_eq_false_iff_not, not_lt]; omega
      rw [h1, h2]; decide
    · rw [if_neg hm]
      have hm' : x.msb = false := by simpa using hm
      have hpos : 0 ≤ x.toInt := by rw [BitVec.msb_eq_toInt] at hm'; simpa using hm'
      have h1 : x.slt 0#32 = false := by rw [BitVec.slt_zero_eq_msb]; exact hm'
      have h2 : (0#32).slt x = true := by
        rw [BitVec.slt_eq_decide, BitVec.toInt_zero]; simp only [decide_eq_true_eq]; omega
      rw [h1, h2]; decide

/-- A division by `16` is at no corner: on every unit the quotient and remainder are the signed ones. -/
theorem divsi_16 (u : ArithUnit) (x : BitVec 32) : IntOp.divsi u x 16#32 = x.sdiv 16#32 := by
  unfold IntOp.divsi
  rw [if_neg]
  unfold IntOp.SDivCorner
  rintro (h | ⟨-, h⟩) <;> exact absurd h (by decide)

theorem remsi_16 (u : ArithUnit) (x : BitVec 32) : IntOp.remsi u x 16#32 = x.srem 16#32 := by
  unfold IntOp.remsi
  rw [if_neg]
  unfold IntOp.SDivCorner
  rintro (h | ⟨-, h⟩) <;> exact absurd h (by decide)

/-- Floor division by `16` over a given sign function `sg` (the divisor's sign being the word `one`) on
    a given unit: the quotient toward zero, less one when the signs differ and the remainder is not zero. -/
def floorDiv16 (u : ArithUnit) (sg : BitVec 32 → BitVec 32) (one : BitVec 32) (x : BitVec 32) : BitVec 32 :=
  Scalar.select
    (IntOp.andi (IntOp.cmpi .ne (sg x) one) (IntOp.cmpi .ne (IntOp.remsi u x 16#32) 0#32))
    (IntOp.subi (IntOp.divsi u x 16#32) 1#32) (IntOp.divsi u x 16#32)

theorem floorDiv16_congr (u u' : ArithUnit) (sg sg' : BitVec 32 → BitVec 32) (one one' : BitVec 32)
    (hs : ∀ x, sg x = sg' x) (h1 : one = one') (x : BitVec 32) :
    floorDiv16 u sg one x = floorDiv16 u' sg' one' x := by
  unfold floorDiv16
  rw [divsi_16 u, divsi_16 u', remsi_16 u, remsi_16 u', hs x, h1]

/-- The divisor's sign, `(0 < 16) - (16 < 0)` on scalars: the word `1`. -/
def signOf16 : BitVec 32 :=
  Scalar.subi (Scalar.extui (Scalar.cmpi .sgt 16#32 0#32)) (Scalar.extui (Scalar.cmpi .slt 16#32 0#32))

theorem signOf16_eq : signOf16 = signCases 16#32 := by decide

/-- New pages of a request of length `s`, in the vector unit's spelling: constants `15`, signs by comparison. -/
def newPages (s : BitVec 32) : BitVec 32 :=
  IntOp.subi (floorDiv16 .vector signCmp signOf16 (IntOp.addi s 15#32))
    (floorDiv16 .vector signCmp signOf16 (IntOp.addi (IntOp.subi s 1#32) 15#32))

/-- The same in the host's spelling: `+ 16` then `- 1`, signs by cases. -/
def newPagesHost (s : BitVec 32) : BitVec 32 :=
  IntOp.subi (floorDiv16 .host signCases (signCases 16#32) (IntOp.subi (IntOp.addi s 16#32) 1#32))
    (floorDiv16 .host signCases (signCases 16#32) (IntOp.subi (IntOp.addi (IntOp.subi s 1#32) 16#32) 1#32))

theorem add16_sub1 (x : BitVec 32) : IntOp.subi (IntOp.addi x 16#32) 1#32 = IntOp.addi x 15#32 := by
  unfold IntOp.subi IntOp.addi
  bv_omega

theorem newPagesHost_eq (s : BitVec 32) : newPagesHost s = newPages s := by
  unfold newPagesHost newPages
  rw [add16_sub1, add16_sub1,
    floorDiv16_congr .host .vector signCases signCmp (signCases 16#32) signOf16
      (fun x => (signCmp_eq_signCases x).symm) signOf16_eq.symm,
    floorDiv16_congr .host .vector signCases signCmp (signCases 16#32) signOf16
      (fun x => (signCmp_eq_signCases x).symm) signOf16_eq.symm]

/-- The output entry: the slot after the last one when no new page is needed, the new page's first slot otherwise. -/
def outLoc (n last page : BitVec 32) : BitVec 32 :=
  Scalar.select (IntOp.cmpi .eq n 0#32) (IntOp.addi last 1#32) (IntOp.muli page 16#32)

end Cert.PageArith
-- ==== Proof.RegionValue.lean ====
/-
  What each of the two kernels leaves in its output array, as one function of its input arrays.

  Both kernels walk the `[65536, 128]` arrays in sixteen blocks of 4096 rows, every window at the same block, and
  their bodies are pointwise: the first stores `newPages` of each entry of its input block, the second
  `outLoc` of the three entries of its input blocks.  So what a grid point writes back is its block of one
  whole-array function of the inputs (`flushed0`, `flushed1`), the sixteen blocks cover the output array (row `r`
  lies in block `r / 4096`), and the array after the region is that function (`final0`, `final1`) — stated at ANY
  contents `V` of the buffers when the region is entered, since the second region is entered from what the first
  and the host operations between them leave.
-/
import proofs.«158260_j32212254720221_1_alg».proof.Proof.Gen.KernelIdeal.Frame
import proofs.«158260_j32212254720221_1_alg».proof.Proof.PageArith
import Idealize.ShloMosaic.Lib.Pipeline.Value

set_option maxRecDepth 16384

noncomputable section

namespace Cert.KernelIdeal.RegionValue

open Cert.KernelIdeal Cert.KernelIdeal.Gen Cert.PageArith
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem off_zero : (![0, 0] : Fin 2 → Nat) = fun _ => 0 := funext fun a => by fin_cases a <;> rfl

/-! ## The bodies, entry by entry -/

/-- The first body's block: `newPages` of each entry of the input block. -/
theorem out0_entries (x0 : Vec F S4096x128 .i32) : out0_1 x0 = fun j => newPages (x0 j) := by
  unfold out0_1
  rw [View.canon_unit_zero off_zero]
  simp only [View.ld_unit_zero (S := S4096x128) off_zero]
  have e : k0_pay2 x0 = x0 := shapeCast_self _ _
  unfold k0_pay1 k0_pay3 k0_pay5 k0_pay6 k0_pay4
  rw [e]
  rfl

/-- The second body's block: `outLoc` of the three input blocks' entries. -/
theorem out1_entries (x0 x1 x2 : Vec F S4096x128 .i32) :
    out1_3 x0 x1 x2 = fun j => outLoc (x0 j) (x1 j) (x2 j) := by
  unfold out1_3
  rw [View.canon_unit_zero off_zero]
  simp only [View.ld_unit_zero (S := S4096x128) off_zero]
  unfold k1_pay1
  rw [shapeCast_self, shapeCast_self, shapeCast_self]
  rfl

/-! ## Region 0 -/

/-- The two windows sit at the same block at every grid point, and that block is one of the sixteen. -/
theorem idx_facts0 : ∀ t : Fin cfg0.N, win0_0.index t (0 : Fin 2) = win0_1.index t (0 : Fin 2)
    ∧ win0_0.index t (1 : Fin 2) = win0_1.index t (1 : Fin 2)
    ∧ win0_1.index t (0 : Fin 2) ≤ 15 ∧ win0_1.index t (1 : Fin 2) = 0 :=
  (by decide +kernel : ∀ t : Fin grid0.N, _)

/-- Every one of the sixteen row blocks is some grid point's. -/
theorem idx_onto0 : ∀ q0 : Fin 16, ∃ t : Fin cfg0.N, win0_1.index t = ![q0.val, 0] :=
  (by decide +kernel : ∀ q0 : Fin 16, ∃ t : Fin grid0.N, win0_1.index t = ![q0.val, 0])

/-- What grid point `t` writes back is block `t` of `newPages` of the input array. -/
theorem flushed0 (c : Dev nD) (t : Fin cfg0.N) :
    (dat0 V c).flushed 1 t
      = ((cfg0.win 1).blk t).view.read (Elt F) (fun i => newPages (V c (Pipeline.arrRef spec0 0) i)) := by
  show (cfg0.win 1).cut (grid0.coords t) ((dat0 V c).after 1 t) = _
  rw [after0_1, out0_entries]
  obtain ⟨e0, e1, -, -⟩ := idx_facts0 t
  funext j
  show newPages (V c (Pipeline.arrRef spec0 0) (((cfg0.win 0).blk t).view.emb j))
      = newPages (V c (Pipeline.arrRef spec0 0) (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 4096 + 1 * (j 0).val = win0_1.index t (0 : Fin 2) * 4096 + 1 * (j 0).val; omega
    | ⟨1, _⟩ => show win0_0.index t (1 : Fin 2) * 128 + 1 * (j 1).val = win0_1.index t (1 : Fin 2) * 128 + 1 * (j 1).val; omega
  rw [h0]

theorem mem_blk0 (t : Fin cfg0.N) (i : S65536x128.Idx) :
    i ∈ ((cfg0.win 1).blk t).view.set ↔ ∀ a : Fin 2, win0_1.index t a * S4096x128.size a ≤ (i a).val ∧ (i a).val < win0_1.index t a * S4096x128.size a + S4096x128.size a := by
  show i ∈ ((View.whole main_v1).slice (win0_1.rect t)).set ↔ _
  rw [View.set_slice_whole, Rect.mem_set_unit]
  exact Iff.rfl

/-- Every entry of the output array lies in some grid point's block: row `r` in block `r / 4096`. -/
theorem cover0 (i : S65536x128.Idx) :
    ∃ t : Fin cfg0.N, (cfg0.win 1).flush t = true ∧ i ∈ ((cfg0.win 1).blk t).view.set := by
  have hi0 : (i 0).val < 65536 := (i 0).isLt
  have hi1 : (i 1).val < 128 := (i 1).isLt
  obtain ⟨t, ht⟩ := idx_onto0 ⟨(i 0).val / 4096, by omega⟩
  have q0 : win0_1.index t (0 : Fin 2) = (i 0).val / 4096 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 128 ≤ (i 1).val ∧ (i 1).val < win0_1.index t (1 : Fin 2) * 128 + 128; omega

/-- After region 0 its output array holds `newPages` of each entry of its input array. -/
theorem final0 (c : Dev nD) :
    (dat0 V c).arrAt 1 cfg0.N = fun i => newPages (V c (Pipeline.arrRef spec0 0) i) :=
  (dat0 V c).arrAt_eq_of_cover 1 _ (fun t _ => flushed0 V c t) cover0

/-! ## Region 1 -/

theorem idx_facts1 : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = win1_3.index t (0 : Fin 2)
    ∧ win1_2.index t (1 : Fin 2) = win1_3.index t (1 : Fin 2) :=
  (by decide +kernel : ∀ t : Fin grid1.N, _)

theorem idx_onto1 : ∀ q0 : Fin 16, ∃ t : Fin cfg1.N, win1_3.index t = ![q0.val, 0] :=
  (by decide +kernel : ∀ q0 : Fin 16, ∃ t : Fin grid1.N, win1_3.index t = ![q0.val, 0])

/-- What grid point `t` writes back is block `t` of `outLoc` of the three input arrays, entry by entry. -/
theorem flushed1 (c : Dev nD) (t : Fin cfg1.N) :
    (dat1 V c).flushed 3 t
      = ((cfg1.win 3).blk t).view.read (Elt F) (fun i => outLoc (V c (Pipeline.arrRef spec1 0) i)
          (V c (Pipeline.arrRef spec1 1) i) (V c (Pipeline.arrRef spec1 2) i)) := by
  show (cfg1.win 3).cut (grid1.coords t) ((dat1 V c).after 3 t) = _
  rw [after1_3, out1_entries]
  obtain ⟨e0, e1, e2, e3, e4, e5⟩ := idx_facts1 t
  funext j
  show outLoc (V c (Pipeline.arrRef spec1 0) (((cfg1.win 0).blk t).view.emb j))
        (V c (Pipeline.arrRef spec1 1) (((cfg1.win 1).blk t).view.emb j))
        (V c (Pipeline.arrRef spec1 2) (((cfg1.win 2).blk t).view.emb j))
      = outLoc (V c (Pipeline.arrRef spec1 0) (((cfg1.win 3).blk t).view.emb j))
        (V c (Pipeline.arrRef spec1 1) (((cfg1.win 3).blk t).view.emb j))
        (V c (Pipeline.arrRef spec1 2) (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 4096 + 1 * (j 0).val = win1_3.index t (0 : Fin 2) * 4096 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 4096 + 1 * (j 0).val = win1_3.index t (0 : Fin 2) * 4096 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 4096 + 1 * (j 0).val = win1_3.index t (0 : Fin 2) * 4096 + 1 * (j 0).val; omega
    | ⟨1, _⟩ => show win1_2.index t (1 : Fin 2) * 128 + 1 * (j 1).val = win1_3.index t (1 : Fin 2) * 128 + 1 * (j 1).val; omega
  rw [h0, h1, h2]

theorem mem_blk1 (t : Fin cfg1.N) (i : S65536x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v15).slice (win1_3.rect t)).set ↔ _
  rw [View.set_slice_whole, Rect.mem_set_unit]
  exact Iff.rfl

theorem cover1 (i : S65536x128.Idx) :
    ∃ t : Fin cfg1.N, (cfg1.win 3).flush t = true ∧ i ∈ ((cfg1.win 3).blk t).view.set := by
  have hi0 : (i 0).val < 65536 := (i 0).isLt
  have hi1 : (i 1).val < 128 := (i 1).isLt
  obtain ⟨t, ht⟩ := idx_onto1 ⟨(i 0).val / 4096, by omega⟩
  have q0 : win1_3.index t (0 : Fin 2) = (i 0).val / 4096 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 128 ≤ (i 1).val ∧ (i 1).val < win1_3.index t (1 : Fin 2) * 128 + 128; omega

/-- After region 1 its output array holds `outLoc` of its three input arrays, entry by entry. -/
theorem final1 (c : Dev nD) :
    (dat1 V c).arrAt 3 cfg1.N = fun i => outLoc (V c (Pipeline.arrRef spec1 0) i)
        (V c (Pipeline.arrRef spec1 1) i) (V c (Pipeline.arrRef spec1 2) i) :=
  (dat1 V c).arrAt_eq_of_cover 3 _ (fun t _ => flushed1 V c t) cover1

end Cert.KernelIdeal.RegionValue

end
-- ==== Proof.PageSpec.lean ====
/-
  The allocator on whole arrays: the result both programs are compared with.

  From the per-request flags `n i = newPages (seq i)` the first free-page slot of request `i` is the exclusive
  prefix sum `(Σ_{k ≤ i} n k) - n i`, clamped to `[0, N - 1]`, a negative index wrapped by `+ N` as indexing does,
  and the page is `free` read there (`pageStart`: a window sum over the `N` entries ending at `i` with `N - 1`
  zeros padded in front, a subtraction, a maximum and a minimum with constants, a select, and a gather along the
  one axis).  Entry `i` of the result is then `outLoc (n i) (last i) (pageStart n free i)` (`result`).
  The window sum and the gather are never opened: both programs apply the same two operations to the same flags.
-/
import Idealize.ShloMosaic.PureOps
import Idealize.ShloMosaic.Lib.Pipeline.Value
import proofs.«158260_j32212254720221_1_alg».proof.Proof.PageArith

noncomputable section

namespace Cert.PageSpec

open Idealize.ShloMosaic Cert.PageArith

/-- The arrays' shape `[N]`, `N = 8388608`; the index column `[N, 1]`; a scalar. -/
abbrev SN : Shape := ⟨1, ![8388608]⟩
abbrev SN1 : Shape := ⟨2, ![8388608, 1]⟩
abbrev S0 : Shape := ⟨0, ![]⟩
/-- The same `N` entries as 65536 rows of 128. -/
abbrev S2 : Shape := ⟨2, ![65536, 128]⟩

/-- The shape relations the operations of `pageStart` take as evidence. -/
structure MidFacts : Prop where
  rw : SN.ReduceWindows (![8388608] : Fin 1 → Nat) ![1] ![8388607] ![0] SN
  h0 : 0 < S0.numel
  b00 : S0.BroadcastsInDim S0 (![] : Fin 0 → Fin S0.rank)
  b0N : S0.BroadcastsInDim SN (![] : Fin 0 → Fin SN.rank)
  bN1 : SN.BroadcastsInDim SN1 (![0] : Fin 1 → Fin SN1.rank)

/-- The slot each request's new page would come from: the exclusive prefix sum of the flags `n` (the window sum
    less the flag itself), clamped to `[0, N - 1]`. -/
def clampedIndex (hf : MidFacts) (n : IVec SN 32) : IVec SN 32 :=
  minsi (broadcastInDim SN ![] hf.b0N (constantI S0 32 8388607#32))
    (maxsi (broadcastInDim SN ![] hf.b0N (constantI S0 32 0#32))
      (subi (Host.reduceWindow IntOp.addi ![8388608] ![1] ![8388607] ![0] n
        (broadcastInDim S0 ![] hf.b00 (constantI S0 32 0#32)) hf.rw hf.h0) n))

/-- The table `free` read at the slots `cl`, a negative slot wrapped by `+ N` as indexing does. -/
def pageAt (hf : MidFacts) (gd : GatherDims SN SN1 SN) (cl free : IVec SN 32) : IVec SN 32 :=
  Host.gather gd free (broadcastInDim SN1 ![0] hf.bN1
    (select (cmpi .slt cl (broadcastInDim SN ![] hf.b0N (constantI S0 32 0#32)))
      (addi cl (broadcastInDim SN ![] hf.b0N (constantI S0 32 8388608#32))) cl))

/-- The page each request would start on: `free` at the clamped, wrapped exclusive prefix sum of the flags `n`. -/
def pageStart (hf : MidFacts) (gd : GatherDims SN SN1 SN) (n free : IVec SN 32) : IVec SN 32 :=
  pageAt hf gd (clampedIndex hf n) free

/-- The result array: entry `i` from request `i`'s flag, its last location and its page. -/
def result (hf : MidFacts) (gd : GatherDims SN SN1 SN) (seq last free : IVec SN 32) : IVec SN 32 :=
  fun i => outLoc (newPages (seq i)) (last i) (pageStart hf gd (fun k => newPages (seq k)) free i)

/-- Computing on the `[65536, 128]` layout and reshaping back is computing on `[N]`: the flags, the last
    locations and the pages laid out as rows, combined entry by entry and flattened again, are `result` — a
    reshape only renames indices, so it commutes with every entry-by-entry function, and there and back is the
    identity. -/
theorem result_of_rows (h12 : SN.ShapeCasts S2) (h21 : S2.ShapeCasts SN) (hf : MidFacts) (gd : GatherDims SN SN1 SN)
    (seq last free : IVec SN 32) :
    shapeCast SN (fun j => outLoc (newPages (shapeCast S2 seq h12 j)) (shapeCast S2 last h12 j)
        (shapeCast S2 (pageStart hf gd (shapeCast SN (fun j => newPages (shapeCast S2 seq h12 j)) h21) free) h12 j)) h21
      = result hf gd seq last free := by
  have e : shapeCast SN (fun j => newPages (shapeCast S2 seq h12 j)) h21 = fun i => newPages (seq i) := by
    show (fun i => newPages (shapeCast SN (shapeCast S2 seq h12) h21 i)) = _
    rw [shapeCast_shapeCast]
  rw [e]
  show (fun i => outLoc (newPages (shapeCast SN (shapeCast S2 seq h12) h21 i)) (shapeCast SN (shapeCast S2 last h12) h21 i)
      (shapeCast SN (shapeCast S2 (pageStart hf gd (fun i => newPages (seq i)) free) h12) h21 i)) = _
  rw [shapeCast_shapeCast, shapeCast_shapeCast, shapeCast_shapeCast]
  rfl

end Cert.PageSpec

end
-- ==== Proof.KernelValue.lean ====
/-
  The idealized kernel's result array, read back through @main to the launch memory.

  @main reshapes the lengths to rows, runs the first kernel (the flags), reshapes them flat, applies the middle
  stretch of host operations (the window sum, the subtraction, the clamp, the wrap and the gather: `pageStart`),
  reshapes the last locations and the pages to rows, runs the second kernel (`outLoc` entry by entry) and reshapes
  its output flat.  The frame module names the buffers' contents at each boundary as a fold over the launch memory;
  here that fold is read at the result buffer: the two kernels' output arrays by their whole-array functions, each
  host stretch by its operations, a buffer no operation writes by what it held.  What is left is the specification
  computed on rows and flattened, which is the specification (`result_of_rows`).
-/
import proofs.«158260_j32212254720221_1_alg».proof.Proof.RegionValue
import proofs.«158260_j32212254720221_1_alg».proof.Proof.PageSpec
import Idealize.ShloMosaic.Lib.StableHlo.Run

set_option maxRecDepth 16384

noncomputable section

namespace Cert.KernelIdeal.FoldValue

open Cert.KernelIdeal Cert.KernelIdeal.Gen Cert.PageArith Cert.PageSpec
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The shape relations of the middle stretch, as this program proves them. -/
theorem midFacts : MidFacts :=
  ⟨reduceWindows_S8388608_S8388608_w8388608s1p8388607_0, h_S_, bcast_S_S_, bcast_S_S8388608, bcast_S8388608_S8388608x1_0⟩

/-- The gather's dimension record. -/
abbrev gd : GatherDims SN SN1 SN := gather_S8388608_S8388608x1_S8388608_n_0_n_n_0_1_1

/-! ## Region 0's exit -/

/-- The flags, on rows: `newPages` of the lengths laid out as rows. -/
theorem W2_flags (c : Dev nD) :
    W2 m ρ c (Proc.devRef .tc main_v1)
      = fun j => newPages (shapeCast S65536x128 (m ((c : Thread nD τ).loc main_arg0)) shapeCasts_S8388608_S65536x128 j) := by
  refine (W2_arr m ρ c 1).trans ?_
  rw [RegionValue.final0 (V1 m ρ) c]
  have e0 : V1 m ρ c (Pipeline.arrRef spec0 0)
      = shapeCast S65536x128 (m ((c : Thread nD τ).loc main_arg0)) shapeCasts_S8388608_S65536x128 := by
    show StableHlo.after hostOps0 (W0 m ρ c) (Proc.devRef .tc main_v0) = _
    after_results <;> rfl
  rw [e0]
  rfl

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)

theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)

/-! ## Region 1's entry: the five host stretches between the regions, over region 0's exit -/

/-- The flags are not written between the regions. -/
theorem V7_flags (c : Dev nD) : V7 m ρ c main_v1 = W2 m ρ c (Proc.devRef .tc main_v1) := by
  show StableHlo.after hostOps1_4 (StableHlo.after hostOps1_3 (StableHlo.after hostOps1_2 (StableHlo.after hostOps1_1 (StableHlo.after hostOps1 (W2 m ρ c))))) (Proc.devRef .tc main_v1) = _
  after_results <;> rfl

/-- The last locations, laid out as rows. -/
theorem V7_last (c : Dev nD) :
    V7 m ρ c main_v13 = shapeCast S65536x128 (W2 m ρ c (Proc.devRef .tc main_arg1)) shapeCasts_S8388608_S65536x128 := by
  show StableHlo.after hostOps1_4 (StableHlo.after hostOps1_3 (StableHlo.after hostOps1_2 (StableHlo.after hostOps1_1 (StableHlo.after hostOps1 (W2 m ρ c))))) (Proc.devRef .tc main_v13) = _
  after_results <;> rfl

/-! ### The stretch that computes the pages, one host list at a time

Each list is read once over ANY contents `X` of the buffers before it (a variable: nothing to unfold beneath it);
the five are then chained from region 0's exit. -/

-- the window sum and the gather stay closed: both are folds over eight million entries
attribute [local irreducible] Host.gather Host.reduceWindow

section Stretches

/-- The flags flattened. -/
theorem flat_of (X : Valuation τ sig (Elt F)) :
    StableHlo.after hostOps1 X (Proc.devRef .tc main_v2)
      = shapeCast S8388608 (X (Proc.devRef .tc main_v1)) shapeCasts_S65536x128_S8388608 := by
  after_results <;> rfl

/-- The inclusive window sum of the flat flags. -/
theorem incl_of (X : Valuation τ sig (Elt F)) :
    StableHlo.after hostOps1_1 X (Proc.devRef .tc main_v3)
      = Host.reduceWindow IntOp.addi ![8388608] ![1] ![8388607] ![0] (X (Proc.devRef .tc main_v2))
          (broadcastInDim S_ ![] bcast_S_S_ (constantI S_ 32 0#32))
          reduceWindows_S8388608_S8388608_w8388608s1p8388607_0 h_S_ := by
  after_results <;> rfl

theorem incl_keeps_flat (X : Valuation τ sig (Elt F)) :
    StableHlo.after hostOps1_1 X (Proc.devRef .tc main_v2) = X (Proc.devRef .tc main_v2) := by
  after_results <;> rfl

/-- The exclusive sum, and the two clamp bounds. -/
theorem excl_of (X : Valuation τ sig (Elt F)) :
    StableHlo.after hostOps1_2 X (Proc.devRef .tc main_v4)
      = subi (X (Proc.devRef .tc main_v3)) (X (Proc.devRef .tc main_v2)) := by
  after_results <;> rfl

theorem lo_of (X : Valuation τ sig (Elt F)) :
    StableHlo.after hostOps1_2 X (Proc.devRef .tc main_c) = constantI S_ 32 0#32 := by
  after_results <;> rfl

theorem hi_of (X : Valuation τ sig (Elt F)) :
    StableHlo.after hostOps1_2 X (Proc.devRef .tc main_c_0) = constantI S_ 32 8388607#32 := by
  after_results <;> rfl

/-- The clamp. -/
theorem clamp_of (X : Valuation τ sig (Elt F)) :
    StableHlo.after hostOps1_3 X (Proc.devRef .tc main_v5)
      = minsi (broadcastInDim S8388608 ![] bcast_S_S8388608 (id (X (Proc.devRef .tc main_c_0))))
          (maxsi (broadcastInDim S8388608 ![] bcast_S_S8388608 (id (X (Proc.devRef .tc main_c))))
            (X (Proc.devRef .tc main_v4))) := by
  after_results <;> rfl

/-- The wrap, the gather and the pages laid out as rows. -/
theorem rows_of (X : Valuation τ sig (Elt F)) :
    StableHlo.after hostOps1_4 X (Proc.devRef .tc main_v14)
      = shapeCast S65536x128
          (Host.gather gather_S8388608_S8388608x1_S8388608_n_0_n_n_0_1_1 (X (Proc.devRef .tc main_arg2))
            (broadcastInDim S8388608x1 ![0] bcast_S8388608_S8388608x1_0
              (select (cmpi .slt (X (Proc.devRef .tc main_v5)) (broadcastInDim S8388608 ![] bcast_S_S8388608 (constantI S_ 32 0#32)))
                (addi (X (Proc.devRef .tc main_v5)) (broadcastInDim S8388608 ![] bcast_S_S8388608 (constantI S_ 32 8388608#32)))
                (X (Proc.devRef .tc main_v5)))))
          shapeCasts_S8388608_S65536x128 := by
  after_results <;> rfl

end Stretches

/-- The flat flags, from region 0's exit. -/
abbrev flat (c : Dev nD) : IVec S8388608 32 :=
  shapeCast S8388608 (W2 m ρ c (Proc.devRef .tc main_v1)) shapeCasts_S65536x128_S8388608

theorem W3_flat (c : Dev nD) : W3 m ρ c (Proc.devRef .tc main_v2) = flat m ρ c := flat_of (W2 m ρ c)

theorem W4_flat (c : Dev nD) : W4 m ρ c (Proc.devRef .tc main_v2) = flat m ρ c :=
  (incl_keeps_flat (W3 m ρ c)).trans (W3_flat m ρ c)

theorem W4_incl (c : Dev nD) :
    W4 m ρ c (Proc.devRef .tc main_v3)
      = Host.reduceWindow IntOp.addi ![8388608] ![1] ![8388607] ![0] (flat m ρ c)
          (broadcastInDim S_ ![] bcast_S_S_ (constantI S_ 32 0#32))
          reduceWindows_S8388608_S8388608_w8388608s1p8388607_0 h_S_ :=
  (incl_of (W3 m ρ c)).trans (by rw [W3_flat])

theorem W5_excl (c : Dev nD) :
    W5 m ρ c (Proc.devRef .tc main_v4)
      = subi (Host.reduceWindow IntOp.addi ![8388608] ![1] ![8388607] ![0] (flat m ρ c)
          (broadcastInDim S_ ![] bcast_S_S_ (constantI S_ 32 0#32))
          reduceWindows_S8388608_S8388608_w8388608s1p8388607_0 h_S_) (flat m ρ c) :=
  (excl_of (W4 m ρ c)).trans (by rw [W4_incl, W4_flat])

theorem W5_lo (c : Dev nD) : W5 m ρ c (Proc.devRef .tc main_c) = constantI S_ 32 0#32 := lo_of (W4 m ρ c)
theorem W5_hi (c : Dev nD) : W5 m ρ c (Proc.devRef .tc main_c_0) = constantI S_ 32 8388607#32 := hi_of (W4 m ρ c)

theorem W6_clamp (c : Dev nD) :
    W6 m ρ c (Proc.devRef .tc main_v5)
      = minsi (broadcastInDim S8388608 ![] bcast_S_S8388608 (id (constantI S_ 32 8388607#32)))
          (maxsi (broadcastInDim S8388608 ![] bcast_S_S8388608 (id (constantI S_ 32 0#32)))
            (subi (Host.reduceWindow IntOp.addi ![8388608] ![1] ![8388607] ![0] (flat m ρ c)
              (broadcastInDim S_ ![] bcast_S_S_ (constantI S_ 32 0#32))
              reduceWindows_S8388608_S8388608_w8388608s1p8388607_0 h_S_) (flat m ρ c))) :=
  (clamp_of (W5 m ρ c)).trans (by rw [W5_hi, W5_lo, W5_excl])

/-- The free-page table is not written before region 1. -/
theorem W6_free (c : Dev nD) : W6 m ρ c (Proc.devRef .tc main_arg2) = W2 m ρ c (Proc.devRef .tc main_arg2) := by
  show StableHlo.after hostOps1_3 (StableHlo.after hostOps1_2 (StableHlo.after hostOps1_1 (StableHlo.after hostOps1 (W2 m ρ c)))) (Proc.devRef .tc main_arg2) = _
  after_results <;> rfl

/-- The pages, laid out as rows: `pageStart` of the flattened flags. -/
theorem V7_page (c : Dev nD) :
    V7 m ρ c main_v14
      = shapeCast S65536x128 (pageStart midFacts gd (flat m ρ c) (W2 m ρ c (Proc.devRef .tc main_arg2)))
          shapeCasts_S8388608_S65536x128 :=
  (rows_of (W6 m ρ c)).trans (by rw [W6_clamp, W6_free]; rfl)

/-! ## The result buffer -/

/-- The result array after the run is the specification's, of the three argument arrays as launched. -/
theorem result_value (c : Dev nD) :
    W9 m ρ c (Proc.devRef .tc main_v16)
      = result midFacts gd (m ((c : Thread nD τ).loc main_arg0)) (m ((c : Thread nD τ).loc main_arg1))
          (m ((c : Thread nD τ).loc main_arg2)) := by
  have e9 : W9 m ρ c (Proc.devRef .tc main_v16)
      = shapeCast S8388608 (W8 m ρ c (Proc.devRef .tc main_v15)) shapeCasts_S65536x128_S8388608 := by
    show StableHlo.after hostOps2 (W8 m ρ c) (Proc.devRef .tc main_v16) = _
    after_results <;> rfl
  have e8 : W8 m ρ c (Proc.devRef .tc main_v15)
      = fun j => outLoc (V7 m ρ c main_v1 j) (V7 m ρ c main_v13 j) (V7 m ρ c main_v14 j) :=
    (W8_arr m ρ c 3).trans (RegionValue.final1 (V7 m ρ) c)
  rw [e9, e8, V7_flags, V7_last, V7_page]
  unfold flat
  rw [W2_flags, W2_arg1, W2_arg2]
  exact result_of_rows shapeCasts_S8388608_S65536x128 shapeCasts_S65536x128_S8388608 midFacts gd _ _ _

end Cert.KernelIdeal.FoldValue

end
-- ==== Proof.RefRun.lean ====
/-
  The idealized reference's run.

  @main of the reference is a straight line of 83 host operations once the helper functions it calls (two floor
  divisions, each ending in a select; the cumulative sum; the clip; the final select) are unfolded at their call
  sites over each call's own buffers.  Run as that list, every weakly fair execution terminates with each buffer at
  the operations' fold over the launch contents (`run_main`); no operation writes an argument buffer.  What the fold
  holds at the result buffer is read in Proof/RefStretches.lean and Proof/RefValue.lean.
-/
import proofs.«158260_j32212254720221_1_alg».proof.Proof.Gen.ReferenceIdeal
import Idealize.ShloMosaic.Lib.StableHlo.Run

noncomputable section

namespace Cert.ReferenceIdeal.RunValue

open Cert.ReferenceIdeal Cert.ReferenceIdeal.Gen Idealize.ShloMosaic Idealize.ShloMosaic.TcCoe Idealize.SL.Sem Idealize.ShloMosaic.StableHlo

variable {F : FTy → Type} [FloatOps F]

/-- @main's 83 operations in order, each helper's operations listed at its call over that call's buffers. -/
abbrev ops : List (HloOp τ sig (Elt F)) :=
  [
    StableHlo.nullary main_c (constantI S_ 32 1#32),
    StableHlo.unary main_c main_v0 (broadcastInDim S8388608 ![] bcast_S_S8388608 : (⟨S_, .i32⟩ : BufTy).Contents (Elt F) → (⟨S8388608, .i32⟩ : BufTy).Contents (Elt F)),
    StableHlo.binary main_arg0 main_v0 main_v1 (subi : (⟨S8388608, .i32⟩ : BufTy).Contents (Elt F) → (⟨S8388608, .i32⟩ : BufTy).Contents (Elt F) → (⟨S8388608, .i32⟩ : BufTy).Contents (Elt F)),
    StableHlo.nullary main_c_0 (constantI S_ 32 16#32),
    StableHlo.unary main_c_0 main_v2 (broadcastInDim S8388608 ![] bcast_S_S8388608 : (⟨S_, .i32⟩ : BufTy).Contents (Elt F) → (⟨S8388608, .i32⟩ : BufTy).Contents (Elt F)),
    StableHlo.binary main_v1 main_v2 main_v3 (addi : (⟨S8388608, .i32⟩ : BufTy).Contents (Elt F) → (⟨S8388608, .i32⟩ : BufTy).Contents (Elt F) → (⟨S8388608, .i32⟩ : BufTy).Contents (Elt F)),
    StableHlo.nullary main_c_1 (constantI S_ 32 1#32),
    StableHlo.unary main_c_1 main_v4 (broadcastInDim S8388608 ![] bcast_S_S8388608 : (⟨S_, .i32⟩ : BufTy).Contents (Elt F) → (⟨S8388608, .i32⟩ : BufTy).Contents (Elt F)),
    StableHlo.binary main_v3 main_v4 main_v5 (subi : (⟨S8388608, .i32⟩ : BufTy).Contents (Elt F) → (⟨S8388608, .i32⟩ : BufTy).Contents (Elt F) → (⟨S8388608, .i32⟩ : BufTy).Contents (Elt F)),
    StableHlo.nullary main_c_2 (constantI S_ 32 16#32),
    StableHlo.TRef.unary (.of main_c_2 : StableHlo.TRef sig ⟨S_, .i32⟩) main_call0.v0 id,
    StableHlo.TRef.unary main_call0.v0 main_call0.v1 (broadcastInDim S8388608 ![] bcast_S_S8388608),
    StableHlo.TRef.binary (.of main_v5 : StableHlo.TRef sig ⟨S8388608, .i32⟩) main_call0.v1 main_call0.v2 Host.divsi,
    StableHlo.TRef.unary (.of main_v5 : StableHlo.TRef sig ⟨S8388608, .i32⟩) main_call0.v3 signi,
    StableHlo.TRef.unary main_call0.v0 main_call0.v4 signi,
    StableHlo.TRef.unary main_call0.v4 main_call0.v5 (broadcastInDim S8388608 ![] bcast_S_S8388608),
    StableHlo.TRef.binary main_call0.v3 main_call0.v5 main_call0.v6 (cmpi .ne),
    StableHlo.TRef.unary main_call0.v0 main_call0.v7 (broadcastInDim S8388608 ![] bcast_S_S8388608),
    StableHlo.TRef.binary (.of main_v5 : StableHlo.TRef sig ⟨S8388608, .i32⟩) main_call0.v7 main_call0.v8 Host.remsi,
    StableHlo.TRef.nullary main_call0.c (constantI S_ 32 0#32),
    StableHlo.TRef.unary main_call0.c main_call0.v9 (broadcastInDim S8388608 ![] bcast_S_S8388608),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8388608 ![] bcast_S_S8388608),
    StableHlo.TRef.binary main_call0.v2 main_call0.v12 main_call0.v13 subi,
    StableHlo.TRef.ternary main_call0.v11 main_call0.v13 main_call0.v2 main_call0.call0.v0 select,
    StableHlo.nullary main_c_3 (constantI S_ 32 16#32),
    StableHlo.unary main_c_3 main_v7 (broadcastInDim S8388608 ![] bcast_S_S8388608 : (⟨S_, .i32⟩ : BufTy).Contents (Elt F) → (⟨S8388608, .i32⟩ : BufTy).Contents (Elt F)),
    StableHlo.binary main_arg0 main_v7 main_v8 (addi : (⟨S8388608, .i32⟩ : BufTy).Contents (Elt F) → (⟨S8388608, .i32⟩ : BufTy).Contents (Elt F) → (⟨S8388608, .i32⟩ : BufTy).Contents (Elt F)),
    StableHlo.nullary main_c_4 (constantI S_ 32 1#32),
    StableHlo.unary main_c_4 main_v9 (broadcastInDim S8388608 ![] bcast_S_S8388608 : (⟨S_, .i32⟩ : BufTy).Contents (Elt F) → (⟨S8388608, .i32⟩ : BufTy).Contents (Elt F)),
    StableHlo.binary main_v8 main_v9 main_v10 (subi : (⟨S8388608, .i32⟩ : BufTy).Contents (Elt F) → (⟨S8388608, .i32⟩ : BufTy).Contents (Elt F) → (⟨S8388608, .i32⟩ : BufTy).Contents (Elt F)),
    StableHlo.nullary main_c_5 (constantI S_ 32 16#32),
    StableHlo.TRef.unary (.of main_c_5 : StableHlo.TRef sig ⟨S_, .i32⟩) main_call1.v0 id,
    StableHlo.TRef.unary main_call1.v0 main_call1.v1 (broadcastInDim S8388608 ![] bcast_S_S8388608),
    StableHlo.TRef.binary (.of main_v10 : StableHlo.TRef sig ⟨S8388608, .i32⟩) main_call1.v1 main_call1.v2 Host.divsi,
    StableHlo.TRef.unary (.of main_v10 : StableHlo.TRef sig ⟨S8388608, .i32⟩) main_call1.v3 signi,
    StableHlo.TRef.unary main_call1.v0 main_call1.v4 signi,
    StableHlo.TRef.unary main_call1.v4 main_call1.v5 (broadcastInDim S8388608 ![] bcast_S_S8388608),
    StableHlo.TRef.binary main_call1.v3 main_call1.v5 main_call1.v6 (cmpi .ne),
    StableHlo.TRef.unary main_call1.v0 main_call1.v7 (broadcastInDim S8388608 ![] bcast_S_S8388608),
    StableHlo.TRef.binary (.of main_v10 : StableHlo.TRef sig ⟨S8388608, .i32⟩) main_call1.v7 main_call1.v8 Host.remsi,
    StableHlo.TRef.nullary main_call1.c (constantI S_ 32 0#32),
    StableHlo.TRef.unary main_call1.c main_call1.v9 (broadcastInDim S8388608 ![] bcast_S_S8388608),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S8388608 ![] bcast_S_S8388608),
    StableHlo.TRef.binary main_call1.v2 main_call1.v12 main_call1.v13 subi,
    StableHlo.TRef.ternary main_call1.v11 main_call1.v13 main_call1.v2 main_call1.call0.v0 select,
    StableHlo.binary main_v11 main_v6 main_v12 (subi : (⟨S8388608, .i32⟩ : BufTy).Contents (Elt F) → (⟨S8388608, .i32⟩ : BufTy).Contents (Elt F) → (⟨S8388608, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v12 : StableHlo.TRef sig ⟨S8388608, .i32⟩) main_call2.call0.v0 main_call2.call0.v1 (fun x v => Host.reduceWindow IntOp.addi ![8388608] ![1] ![8388607] ![0] x v reduceWindows_S8388608_S8388608_w8388608s1p8388607_0 h_S_),
    StableHlo.binary main_v13 main_v12 main_v14 (subi : (⟨S8388608, .i32⟩ : BufTy).Contents (Elt F) → (⟨S8388608, .i32⟩ : BufTy).Contents (Elt F) → (⟨S8388608, .i32⟩ : BufTy).Contents (Elt F)),
    StableHlo.nullary main_c_6 (constantI S_ 32 0#32),
    StableHlo.nullary main_c_7 (constantI S_ 32 8388607#32),
    StableHlo.TRef.unary (.of main_c_6 : StableHlo.TRef sig ⟨S_, .i32⟩) main_call3.v0 id,
    StableHlo.TRef.unary main_call3.v0 main_call3.v1 (broadcastInDim S8388608 ![] bcast_S_S8388608),
    StableHlo.TRef.binary main_call3.v1 (.of main_v14 : StableHlo.TRef sig ⟨S8388608, .i32⟩) main_call3.v2 maxsi,
    StableHlo.TRef.unary (.of main_c_7 : StableHlo.TRef sig ⟨S_, .i32⟩) main_call3.v3 id,
    StableHlo.TRef.unary main_call3.v3 main_call3.v4 (broadcastInDim S8388608 ![] bcast_S_S8388608),
    StableHlo.TRef.binary main_call3.v4 main_call3.v2 main_call3.v5 minsi,
    StableHlo.nullary main_c_8 (constantI S_ 32 0#32),
    StableHlo.unary main_c_8 main_v16 (broadcastInDim S8388608 ![] bcast_S_S8388608 : (⟨S_, .i32⟩ : BufTy).Contents (Elt F) → (⟨S8388608, .i32⟩ : BufTy).Contents (Elt F)),
    StableHlo.binary main_v15 main_v16 main_v17 (cmpi .slt : (⟨S8388608, .i32⟩ : BufTy).Contents (Elt F) → (⟨S8388608, .i32⟩ : BufTy).Contents (Elt F) → (⟨S8388608, .i1⟩ : BufTy).Contents (Elt F)),
    StableHlo.nullary main_c_9 (constantI S_ 32 8388608#32),
    StableHlo.unary main_c_9 main_v18 (broadcastInDim S8388608 ![] bcast_S_S8388608 : (⟨S_, .i32⟩ : BufTy).Contents (Elt F) → (⟨S8388608, .i32⟩ : BufTy).Contents (Elt F)),
    StableHlo.binary main_v15 main_v18 main_v19 (addi : (⟨S8388608, .i32⟩ : BufTy).Contents (Elt F) → (⟨S8388608, .i32⟩ : BufTy).Contents (Elt F) → (⟨S8388608, .i32⟩ : BufTy).Contents (Elt F)),
    StableHlo.ternary main_v17 main_v19 main_v15 main_v20 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v20 main_v21 (broadcastInDim S8388608x1 ![0] bcast_S8388608_S8388608x1_0 : (⟨S8388608, .i32⟩ : BufTy).Contents (Elt F) → (⟨S8388608x1, .i32⟩ : BufTy).Contents (Elt F)),
    StableHlo.binary main_arg2 main_v21 main_v22 ((fun x i => Host.gather gather_S8388608_S8388608x1_S8388608_n_0_n_n_0_1_1 x i) : (⟨S8388608, .i32⟩ : BufTy).Contents (Elt F) → (⟨S8388608x1, .i32⟩ : BufTy).Contents (Elt F) → (⟨S8388608, .i32⟩ : BufTy).Contents (Elt F)),
    StableHlo.nullary main_c_10 (constantI S_ 32 0#32),
    StableHlo.unary main_c_10 main_v23 (broadcastInDim S8388608 ![] bcast_S_S8388608 : (⟨S_, .i32⟩ : BufTy).Contents (Elt F) → (⟨S8388608, .i32⟩ : BufTy).Contents (Elt F)),
    StableHlo.binary main_v12 main_v23 main_v24 (cmpi .eq : (⟨S8388608, .i32⟩ : BufTy).Contents (Elt F) → (⟨S8388608, .i32⟩ : BufTy).Contents (Elt F) → (⟨S8388608, .i1⟩ : BufTy).Contents (Elt F)),
    StableHlo.nullary main_c_11 (constantI S_ 32 1#32),
    StableHlo.unary main_c_11 main_v25 (broadcastInDim S8388608 ![] bcast_S_S8388608 : (⟨S_, .i32⟩ : BufTy).Contents (Elt F) → (⟨S8388608, .i32⟩ : BufTy).Contents (Elt F)),
    StableHlo.binary main_arg1 main_v25 main_v26 (addi : (⟨S8388608, .i32⟩ : BufTy).Contents (Elt F) → (⟨S8388608, .i32⟩ : BufTy).Contents (Elt F) → (⟨S8388608, .i32⟩ : BufTy).Contents (Elt F)),
    StableHlo.nullary main_c_12 (constantI S_ 32 16#32),
    StableHlo.unary main_c_12 main_v27 (broadcastInDim S8388608 ![] bcast_S_S8388608 : (⟨S_, .i32⟩ : BufTy).Contents (Elt F) → (⟨S8388608, .i32⟩ : BufTy).Contents (Elt F)),
    StableHlo.binary main_v22 main_v27 main_v28 (muli : (⟨S8388608, .i32⟩ : BufTy).Contents (Elt F) → (⟨S8388608, .i32⟩ : BufTy).Contents (Elt F) → (⟨S8388608, .i32⟩ : BufTy).Contents (Elt F)),
    StableHlo.TRef.ternary (.of main_v24 : StableHlo.TRef sig ⟨S8388608, .i1⟩) (.of main_v26 : StableHlo.TRef sig ⟨S8388608, .i32⟩) (.of main_v28 : StableHlo.TRef sig ⟨S8388608, .i32⟩) main_call4.v0 select ]

/-- @main is that straight line: the helpers unfold at their calls and sequencing re-associates, by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.unary_bufs_sub ..,
    StableHlo.binary_bufs_sub .., StableHlo.unary_bufs_sub .., StableHlo.unary_bufs_sub .., StableHlo.unary_bufs_sub ..,
    StableHlo.binary_bufs_sub .., StableHlo.unary_bufs_sub .., StableHlo.binary_bufs_sub .., StableHlo.nullary_bufs_sub ..,
    StableHlo.unary_bufs_sub .., StableHlo.binary_bufs_sub .., StableHlo.binary_bufs_sub .., StableHlo.nullary_bufs_sub ..,
    StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.unary_bufs_sub ..,
    StableHlo.binary_bufs_sub .., StableHlo.unary_bufs_sub .., StableHlo.unary_bufs_sub .., StableHlo.unary_bufs_sub ..,
    StableHlo.binary_bufs_sub .., StableHlo.unary_bufs_sub .., StableHlo.binary_bufs_sub .., StableHlo.nullary_bufs_sub ..,
    StableHlo.unary_bufs_sub .., StableHlo.binary_bufs_sub .., StableHlo.binary_bufs_sub .., StableHlo.nullary_bufs_sub ..,
    StableHlo.unary_bufs_sub .., StableHlo.binary_bufs_sub .., StableHlo.ternary_bufs_sub .., StableHlo.binary_bufs_sub ..,
    StableHlo.nullary_bufs_sub .., StableHlo.unary_bufs_sub .., StableHlo.binary_bufs_sub .., StableHlo.binary_bufs_sub ..,
    StableHlo.nullary_bufs_sub .., StableHlo.nullary_bufs_sub .., StableHlo.unary_bufs_sub .., StableHlo.unary_bufs_sub ..,
    StableHlo.binary_bufs_sub .., StableHlo.unary_bufs_sub .., StableHlo.unary_bufs_sub .., StableHlo.binary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.ternary_bufs_sub ..⟩

/-- Every weakly fair execution of @main terminates, and every final state has each buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The argument buffers are written by no operation -/

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl

end Cert.ReferenceIdeal.RunValue

end
-- ==== Proof.RefStretches.lean ====
/-
  The reference's operations, stretch by stretch.

  The 83 operations are cut into seven stretches — the first dividend `s - 1 + 16 - 1`; its floor division by 16; the
  second dividend `s + 16 - 1`; its floor division; the flags (the difference of the two quotients), their window sum
  and the clamp; the wrap and the gather; the last select.  Each stretch is read once over ANY contents `X` of the
  buffers before it, GIVEN what `X` holds in the buffers the stretch reads: it leaves the specification's term of those
  in the buffer later stretches read, and leaves alone the buffers it does not write.  The entry-by-entry operations
  unfold at an entry; the window sum and the gather stay closed.
-/
import proofs.«158260_j32212254720221_1_alg».proof.Proof.RefRun
import proofs.«158260_j32212254720221_1_alg».proof.Proof.PageSpec

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.PageArith Cert.PageSpec

variable {F : FTy → Type} [FloatOps F]

-- the window sum and the gather stay closed: both are folds over eight million entries
attribute [local irreducible] Host.gather Host.reduceWindow

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The stretches

First as they stand in the list — a helper function's operations over typed references, whose functions are
wrapped in transports between a value's type and its buffer's —, then over the buffers themselves with the functions
bare: at these literal buffers every transport is the identity, so the two spellings of a stretch are one list. -/

abbrev tseg1 : List (HloOp τ sig (Elt F)) :=
  [
    StableHlo.nullary main_c (constantI S_ 32 1#32),
    StableHlo.unary main_c main_v0 (broadcastInDim S8388608 ![] bcast_S_S8388608 : (⟨S_, .i32⟩ : BufTy).Contents (Elt F) → (⟨S8388608, .i32⟩ : BufTy).Contents (Elt F)),
    StableHlo.binary main_arg0 main_v0 main_v1 (subi : (⟨S8388608, .i32⟩ : BufTy).Contents (Elt F) → (⟨S8388608, .i32⟩ : BufTy).Contents (Elt F) → (⟨S8388608, .i32⟩ : BufTy).Contents (Elt F)),
    StableHlo.nullary main_c_0 (constantI S_ 32 16#32),
    StableHlo.unary main_c_0 main_v2 (broadcastInDim S8388608 ![] bcast_S_S8388608 : (⟨S_, .i32⟩ : BufTy).Contents (Elt F) → (⟨S8388608, .i32⟩ : BufTy).Contents (Elt F)),
    StableHlo.binary main_v1 main_v2 main_v3 (addi : (⟨S8388608, .i32⟩ : BufTy).Contents (Elt F) → (⟨S8388608, .i32⟩ : BufTy).Contents (Elt F) → (⟨S8388608, .i32⟩ : BufTy).Contents (Elt F)),
    StableHlo.nullary main_c_1 (constantI S_ 32 1#32),
    StableHlo.unary main_c_1 main_v4 (broadcastInDim S8388608 ![] bcast_S_S8388608 : (⟨S_, .i32⟩ : BufTy).Contents (Elt F) → (⟨S8388608, .i32⟩ : BufTy).Contents (Elt F)),
    StableHlo.binary main_v3 main_v4 main_v5 (subi : (⟨S8388608, .i32⟩ : BufTy).Contents (Elt F) → (⟨S8388608, .i32⟩ : BufTy).Contents (Elt F) → (⟨S8388608, .i32⟩ : BufTy).Contents (Elt F)),
    StableHlo.nullary main_c_2 (constantI S_ 32 16#32) ]

abbrev tseg2 : List (HloOp τ sig (Elt F)) :=
  [
    StableHlo.TRef.unary (.of main_c_2 : StableHlo.TRef sig ⟨S_, .i32⟩) main_call0.v0 id,
    StableHlo.TRef.unary main_call0.v0 main_call0.v1 (broadcastInDim S8388608 ![] bcast_S_S8388608),
    StableHlo.TRef.binary (.of main_v5 : StableHlo.TRef sig ⟨S8388608, .i32⟩) main_call0.v1 main_call0.v2 Host.divsi,
    StableHlo.TRef.unary (.of main_v5 : StableHlo.TRef sig ⟨S8388608, .i32⟩) main_call0.v3 signi,
    StableHlo.TRef.unary main_call0.v0 main_call0.v4 signi,
    StableHlo.TRef.unary main_call0.v4 main_call0.v5 (broadcastInDim S8388608 ![] bcast_S_S8388608),
    StableHlo.TRef.binary main_call0.v3 main_call0.v5 main_call0.v6 (cmpi .ne),
    StableHlo.TRef.unary main_call0.v0 main_call0.v7 (broadcastInDim S8388608 ![] bcast_S_S8388608),
    StableHlo.TRef.binary (.of main_v5 : StableHlo.TRef sig ⟨S8388608, .i32⟩) main_call0.v7 main_call0.v8 Host.remsi,
    StableHlo.TRef.nullary main_call0.c (constantI S_ 32 0#32),
    StableHlo.TRef.unary main_call0.c main_call0.v9 (broadcastInDim S8388608 ![] bcast_S_S8388608),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8388608 ![] bcast_S_S8388608),
    StableHlo.TRef.binary main_call0.v2 main_call0.v12 main_call0.v13 subi,
    StableHlo.TRef.ternary main_call0.v11 main_call0.v13 main_call0.v2 main_call0.call0.v0 select ]

abbrev tseg3 : List (HloOp τ sig (Elt F)) :=
  [
    StableHlo.nullary main_c_3 (constantI S_ 32 16#32),
    StableHlo.unary main_c_3 main_v7 (broadcastInDim S8388608 ![] bcast_S_S8388608 : (⟨S_, .i32⟩ : BufTy).Contents (Elt F) → (⟨S8388608, .i32⟩ : BufTy).Contents (Elt F)),
    StableHlo.binary main_arg0 main_v7 main_v8 (addi : (⟨S8388608, .i32⟩ : BufTy).Contents (Elt F) → (⟨S8388608, .i32⟩ : BufTy).Contents (Elt F) → (⟨S8388608, .i32⟩ : BufTy).Contents (Elt F)),
    StableHlo.nullary main_c_4 (constantI S_ 32 1#32),
    StableHlo.unary main_c_4 main_v9 (broadcastInDim S8388608 ![] bcast_S_S8388608 : (⟨S_, .i32⟩ : BufTy).Contents (Elt F) → (⟨S8388608, .i32⟩ : BufTy).Contents (Elt F)),
    StableHlo.binary main_v8 main_v9 main_v10 (subi : (⟨S8388608, .i32⟩ : BufTy).Contents (Elt F) → (⟨S8388608, .i32⟩ : BufTy).Contents (Elt F) → (⟨S8388608, .i32⟩ : BufTy).Contents (Elt F)),
    StableHlo.nullary main_c_5 (constantI S_ 32 16#32) ]

abbrev tseg4 : List (HloOp τ sig (Elt F)) :=
  [
    StableHlo.TRef.unary (.of main_c_5 : StableHlo.TRef sig ⟨S_, .i32⟩) main_call1.v0 id,
    StableHlo.TRef.unary main_call1.v0 main_call1.v1 (broadcastInDim S8388608 ![] bcast_S_S8388608),
    StableHlo.TRef.binary (.of main_v10 : StableHlo.TRef sig ⟨S8388608, .i32⟩) main_call1.v1 main_call1.v2 Host.divsi,
    StableHlo.TRef.unary (.of main_v10 : StableHlo.TRef sig ⟨S8388608, .i32⟩) main_call1.v3 signi,
    StableHlo.TRef.unary main_call1.v0 main_call1.v4 signi,
    StableHlo.TRef.unary main_call1.v4 main_call1.v5 (broadcastInDim S8388608 ![] bcast_S_S8388608),
    StableHlo.TRef.binary main_call1.v3 main_call1.v5 main_call1.v6 (cmpi .ne),
    StableHlo.TRef.unary main_call1.v0 main_call1.v7 (broadcastInDim S8388608 ![] bcast_S_S8388608),
    StableHlo.TRef.binary (.of main_v10 : StableHlo.TRef sig ⟨S8388608, .i32⟩) main_call1.v7 main_call1.v8 Host.remsi,
    StableHlo.TRef.nullary main_call1.c (constantI S_ 32 0#32),
    StableHlo.TRef.unary main_call1.c main_call1.v9 (broadcastInDim S8388608 ![] bcast_S_S8388608),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S8388608 ![] bcast_S_S8388608),
    StableHlo.TRef.binary main_call1.v2 main_call1.v12 main_call1.v13 subi,
    StableHlo.TRef.ternary main_call1.v11 main_call1.v13 main_call1.v2 main_call1.call0.v0 select ]

abbrev tseg5 : List (HloOp τ sig (Elt F)) :=
  [
    StableHlo.binary main_v11 main_v6 main_v12 (subi : (⟨S8388608, .i32⟩ : BufTy).Contents (Elt F) → (⟨S8388608, .i32⟩ : BufTy).Contents (Elt F) → (⟨S8388608, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v12 : StableHlo.TRef sig ⟨S8388608, .i32⟩) main_call2.call0.v0 main_call2.call0.v1 (fun x v => Host.reduceWindow IntOp.addi ![8388608] ![1] ![8388607] ![0] x v reduceWindows_S8388608_S8388608_w8388608s1p8388607_0 h_S_),
    StableHlo.binary main_v13 main_v12 main_v14 (subi : (⟨S8388608, .i32⟩ : BufTy).Contents (Elt F) → (⟨S8388608, .i32⟩ : BufTy).Contents (Elt F) → (⟨S8388608, .i32⟩ : BufTy).Contents (Elt F)),
    StableHlo.nullary main_c_6 (constantI S_ 32 0#32),
    StableHlo.nullary main_c_7 (constantI S_ 32 8388607#32),
    StableHlo.TRef.unary (.of main_c_6 : StableHlo.TRef sig ⟨S_, .i32⟩) main_call3.v0 id,
    StableHlo.TRef.unary main_call3.v0 main_call3.v1 (broadcastInDim S8388608 ![] bcast_S_S8388608),
    StableHlo.TRef.binary main_call3.v1 (.of main_v14 : StableHlo.TRef sig ⟨S8388608, .i32⟩) main_call3.v2 maxsi,
    StableHlo.TRef.unary (.of main_c_7 : StableHlo.TRef sig ⟨S_, .i32⟩) main_call3.v3 id,
    StableHlo.TRef.unary main_call3.v3 main_call3.v4 (broadcastInDim S8388608 ![] bcast_S_S8388608),
    StableHlo.TRef.binary main_call3.v4 main_call3.v2 main_call3.v5 minsi ]

abbrev tseg6 : List (HloOp τ sig (Elt F)) :=
  [
    StableHlo.nullary main_c_8 (constantI S_ 32 0#32),
    StableHlo.unary main_c_8 main_v16 (broadcastInDim S8388608 ![] bcast_S_S8388608 : (⟨S_, .i32⟩ : BufTy).Contents (Elt F) → (⟨S8388608, .i32⟩ : BufTy).Contents (Elt F)),
    StableHlo.binary main_v15 main_v16 main_v17 (cmpi .slt : (⟨S8388608, .i32⟩ : BufTy).Contents (Elt F) → (⟨S8388608, .i32⟩ : BufTy).Contents (Elt F) → (⟨S8388608, .i1⟩ : BufTy).Contents (Elt F)),
    StableHlo.nullary main_c_9 (constantI S_ 32 8388608#32),
    StableHlo.unary main_c_9 main_v18 (broadcastInDim S8388608 ![] bcast_S_S8388608 : (⟨S_, .i32⟩ : BufTy).Contents (Elt F) → (⟨S8388608, .i32⟩ : BufTy).Contents (Elt F)),
    StableHlo.binary main_v15 main_v18 main_v19 (addi : (⟨S8388608, .i32⟩ : BufTy).Contents (Elt F) → (⟨S8388608, .i32⟩ : BufTy).Contents (Elt F) → (⟨S8388608, .i32⟩ : BufTy).Contents (Elt F)),
    StableHlo.ternary main_v17 main_v19 main_v15 main_v20 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v20 main_v21 (broadcastInDim S8388608x1 ![0] bcast_S8388608_S8388608x1_0 : (⟨S8388608, .i32⟩ : BufTy).Contents (Elt F) → (⟨S8388608x1, .i32⟩ : BufTy).Contents (Elt F)),
    StableHlo.binary main_arg2 main_v21 main_v22 ((fun x i => Host.gather gather_S8388608_S8388608x1_S8388608_n_0_n_n_0_1_1 x i) : (⟨S8388608, .i32⟩ : BufTy).Contents (Elt F) → (⟨S8388608x1, .i32⟩ : BufTy).Contents (Elt F) → (⟨S8388608, .i32⟩ : BufTy).Contents (Elt F)) ]

abbrev tseg7 : List (HloOp τ sig (Elt F)) :=
  [
    StableHlo.nullary main_c_10 (constantI S_ 32 0#32),
    StableHlo.unary main_c_10 main_v23 (broadcastInDim S8388608 ![] bcast_S_S8388608 : (⟨S_, .i32⟩ : BufTy).Contents (Elt F) → (⟨S8388608, .i32⟩ : BufTy).Contents (Elt F)),
    StableHlo.binary main_v12 main_v23 main_v24 (cmpi .eq : (⟨S8388608, .i32⟩ : BufTy).Contents (Elt F) → (⟨S8388608, .i32⟩ : BufTy).Contents (Elt F) → (⟨S8388608, .i1⟩ : BufTy).Contents (Elt F)),
    StableHlo.nullary main_c_11 (constantI S_ 32 1#32),
    StableHlo.unary main_c_11 main_v25 (broadcastInDim S8388608 ![] bcast_S_S8388608 : (⟨S_, .i32⟩ : BufTy).Contents (Elt F) → (⟨S8388608, .i32⟩ : BufTy).Contents (Elt F)),
    StableHlo.binary main_arg1 main_v25 main_v26 (addi : (⟨S8388608, .i32⟩ : BufTy).Contents (Elt F) → (⟨S8388608, .i32⟩ : BufTy).Contents (Elt F) → (⟨S8388608, .i32⟩ : BufTy).Contents (Elt F)),
    StableHlo.nullary main_c_12 (constantI S_ 32 16#32),
    StableHlo.unary main_c_12 main_v27 (broadcastInDim S8388608 ![] bcast_S_S8388608 : (⟨S_, .i32⟩ : BufTy).Contents (Elt F) → (⟨S8388608, .i32⟩ : BufTy).Contents (Elt F)),
    StableHlo.binary main_v22 main_v27 main_v28 (muli : (⟨S8388608, .i32⟩ : BufTy).Contents (Elt F) → (⟨S8388608, .i32⟩ : BufTy).Contents (Elt F) → (⟨S8388608, .i32⟩ : BufTy).Contents (Elt F)),
    StableHlo.TRef.ternary (.of main_v24 : StableHlo.TRef sig ⟨S8388608, .i1⟩) (.of main_v26 : StableHlo.TRef sig ⟨S8388608, .i32⟩) (.of main_v28 : StableHlo.TRef sig ⟨S8388608, .i32⟩) main_call4.v0 select ]

theorem ops_split_typed :
    (ops : List (HloOp τ sig (Elt F))) = tseg1 ++ (tseg2 ++ (tseg3 ++ (tseg4 ++ (tseg5 ++ (tseg6 ++ tseg7))))) := rfl

/-- Stretch 1. -/
abbrev seg1 : List (HloOp τ sig (Elt F)) :=
  [
    StableHlo.nullary main_c (constantI S_ 32 1#32),
    StableHlo.unary main_c main_v0 (broadcastInDim S8388608 ![] bcast_S_S8388608 : (⟨S_, .i32⟩ : BufTy).Contents (Elt F) → (⟨S8388608, .i32⟩ : BufTy).Contents (Elt F)),
    StableHlo.binary main_arg0 main_v0 main_v1 (subi : (⟨S8388608, .i32⟩ : BufTy).Contents (Elt F) → (⟨S8388608, .i32⟩ : BufTy).Contents (Elt F) → (⟨S8388608, .i32⟩ : BufTy).Contents (Elt F)),
    StableHlo.nullary main_c_0 (constantI S_ 32 16#32),
    StableHlo.unary main_c_0 main_v2 (broadcastInDim S8388608 ![] bcast_S_S8388608 : (⟨S_, .i32⟩ : BufTy).Contents (Elt F) → (⟨S8388608, .i32⟩ : BufTy).Contents (Elt F)),
    StableHlo.binary main_v1 main_v2 main_v3 (addi : (⟨S8388608, .i32⟩ : BufTy).Contents (Elt F) → (⟨S8388608, .i32⟩ : BufTy).Contents (Elt F) → (⟨S8388608, .i32⟩ : BufTy).Contents (Elt F)),
    StableHlo.nullary main_c_1 (constantI S_ 32 1#32),
    StableHlo.unary main_c_1 main_v4 (broadcastInDim S8388608 ![] bcast_S_S8388608 : (⟨S_, .i32⟩ : BufTy).Contents (Elt F) → (⟨S8388608, .i32⟩ : BufTy).Contents (Elt F)),
    StableHlo.binary main_v3 main_v4 main_v5 (subi : (⟨S8388608, .i32⟩ : BufTy).Contents (Elt F) → (⟨S8388608, .i32⟩ : BufTy).Contents (Elt F) → (⟨S8388608, .i32⟩ : BufTy).Contents (Elt F)),
    StableHlo.nullary main_c_2 (constantI S_ 32 16#32) ]

/-- Stretch 2. -/
abbrev seg2 : List (HloOp τ sig (Elt F)) :=
  [
    StableHlo.unary main_c_2 main_call0_v0 (id : (⟨S_, .i32⟩ : BufTy).Contents (Elt F) → (⟨S_, .i32⟩ : BufTy).Contents (Elt F)),
    StableHlo.unary main_call0_v0 main_call0_v1 ((broadcastInDim S8388608 ![] bcast_S_S8388608) : (⟨S_, .i32⟩ : BufTy).Contents (Elt F) → (⟨S8388608, .i32⟩ : BufTy).Contents (Elt F)),
    StableHlo.binary main_v5 main_call0_v1 main_call0_v2 (Host.divsi : (⟨S8388608, .i32⟩ : BufTy).Contents (Elt F) → (⟨S8388608, .i32⟩ : BufTy).Contents (Elt F) → (⟨S8388608, .i32⟩ : BufTy).Contents (Elt F)),
    StableHlo.unary main_v5 main_call0_v3 (signi : (⟨S8388608, .i32⟩ : BufTy).Contents (Elt F) → (⟨S8388608, .i32⟩ : BufTy).Contents (Elt F)),
    StableHlo.unary main_call0_v0 main_call0_v4 (signi : (⟨S_, .i32⟩ : BufTy).Contents (Elt F) → (⟨S_, .i32⟩ : BufTy).Contents (Elt F)),
    StableHlo.unary main_call0_v4 main_call0_v5 ((broadcastInDim S8388608 ![] bcast_S_S8388608) : (⟨S_, .i32⟩ : BufTy).Contents (Elt F) → (⟨S8388608, .i32⟩ : BufTy).Contents (Elt F)),
    StableHlo.binary main_call0_v3 main_call0_v5 main_call0_v6 ((cmpi .ne) : (⟨S8388608, .i32⟩ : BufTy).Contents (Elt F) → (⟨S8388608, .i32⟩ : BufTy).Contents (Elt F) → (⟨S8388608, .i1⟩ : BufTy).Contents (Elt F)),
    StableHlo.unary main_call0_v0 main_call0_v7 ((broadcastInDim S8388608 ![] bcast_S_S8388608) : (⟨S_, .i32⟩ : BufTy).Contents (Elt F) → (⟨S8388608, .i32⟩ : BufTy).Contents (Elt F)),
    StableHlo.binary main_v5 main_call0_v7 main_call0_v8 (Host.remsi : (⟨S8388608, .i32⟩ : BufTy).Contents (Elt F) → (⟨S8388608, .i32⟩ : BufTy).Contents (Elt F) → (⟨S8388608, .i32⟩ : BufTy).Contents (Elt F)),
    StableHlo.nullary main_call0_c ((constantI S_ 32 0#32) : (⟨S_, .i32⟩ : BufTy).Contents (Elt F)),
    StableHlo.unary main_call0_c main_call0_v9 ((broadcastInDim S8388608 ![] bcast_S_S8388608) : (⟨S_, .i32⟩ : BufTy).Contents (Elt F) → (⟨S8388608, .i32⟩ : BufTy).Contents (Elt F)),
    StableHlo.binary main_call0_v8 main_call0_v9 main_call0_v10 ((cmpi .ne) : (⟨S8388608, .i32⟩ : BufTy).Contents (Elt F) → (⟨S8388608, .i32⟩ : BufTy).Contents (Elt F) → (⟨S8388608, .i1⟩ : BufTy).Contents (Elt F)),
    StableHlo.binary main_call0_v6 main_call0_v10 main_call0_v11 (andi : (⟨S8388608, .i1⟩ : BufTy).Contents (Elt F) → (⟨S8388608, .i1⟩ : BufTy).Contents (Elt F) → (⟨S8388608, .i1⟩ : BufTy).Contents (Elt F)),
    StableHlo.nullary main_call0_c_0 ((constantI S_ 32 1#32) : (⟨S_, .i32⟩ : BufTy).Contents (Elt F)),
    StableHlo.unary main_call0_c_0 main_call0_v12 ((broadcastInDim S8388608 ![] bcast_S_S8388608) : (⟨S_, .i32⟩ : BufTy).Contents (Elt F) → (⟨S8388608, .i32⟩ : BufTy).Contents (Elt F)),
    StableHlo.binary main_call0_v2 main_call0_v12 main_call0_v13 (subi : (⟨S8388608, .i32⟩ : BufTy).Contents (Elt F) → (⟨S8388608, .i32⟩ : BufTy).Contents (Elt F) → (⟨S8388608, .i32⟩ : BufTy).Contents (Elt F)),
    StableHlo.ternary main_call0_v11 main_call0_v13 main_call0_v2 main_v6 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)) ]

/-- Stretch 3. -/
abbrev seg3 : List (HloOp τ sig (Elt F)) :=
  [
    StableHlo.nullary main_c_3 (constantI S_ 32 16#32),
    StableHlo.unary main_c_3 main_v7 (broadcastInDim S8388608 ![] bcast_S_S8388608 : (⟨S_, .i32⟩ : BufTy).Contents (Elt F) → (⟨S8388608, .i32⟩ : BufTy).Contents (Elt F)),
    StableHlo.binary main_arg0 main_v7 main_v8 (addi : (⟨S8388608, .i32⟩ : BufTy).Contents (Elt F) → (⟨S8388608, .i32⟩ : BufTy).Contents (Elt F) → (⟨S8388608, .i32⟩ : BufTy).Contents (Elt F)),
    StableHlo.nullary main_c_4 (constantI S_ 32 1#32),
    StableHlo.unary main_c_4 main_v9 (broadcastInDim S8388608 ![] bcast_S_S8388608 : (⟨S_, .i32⟩ : BufTy).Contents (Elt F) → (⟨S8388608, .i32⟩ : BufTy).Contents (Elt F)),
    StableHlo.binary main_v8 main_v9 main_v10 (subi : (⟨S8388608, .i32⟩ : BufTy).Contents (Elt F) → (⟨S8388608, .i32⟩ : BufTy).Contents (Elt F) → (⟨S8388608, .i32⟩ : BufTy).Contents (Elt F)),
    StableHlo.nullary main_c_5 (constantI S_ 32 16#32) ]

/-- Stretch 4. -/
abbrev seg4 : List (HloOp τ sig (Elt F)) :=
  [
    StableHlo.unary main_c_5 main_call1_v0 (id : (⟨S_, .i32⟩ : BufTy).Contents (Elt F) → (⟨S_, .i32⟩ : BufTy).Contents (Elt F)),
    StableHlo.unary main_call1_v0 main_call1_v1 ((broadcastInDim S8388608 ![] bcast_S_S8388608) : (⟨S_, .i32⟩ : BufTy).Contents (Elt F) → (⟨S8388608, .i32⟩ : BufTy).Contents (Elt F)),
    StableHlo.binary main_v10 main_call1_v1 main_call1_v2 (Host.divsi : (⟨S8388608, .i32⟩ : BufTy).Contents (Elt F) → (⟨S8388608, .i32⟩ : BufTy).Contents (Elt F) → (⟨S8388608, .i32⟩ : BufTy).Contents (Elt F)),
    StableHlo.unary main_v10 main_call1_v3 (signi : (⟨S8388608, .i32⟩ : BufTy).Contents (Elt F) → (⟨S8388608, .i32⟩ : BufTy).Contents (Elt F)),
    StableHlo.unary main_call1_v0 main_call1_v4 (signi : (⟨S_, .i32⟩ : BufTy).Contents (Elt F) → (⟨S_, .i32⟩ : BufTy).Contents (Elt F)),
    StableHlo.unary main_call1_v4 main_call1_v5 ((broadcastInDim S8388608 ![] bcast_S_S8388608) : (⟨S_, .i32⟩ : BufTy).Contents (Elt F) → (⟨S8388608, .i32⟩ : BufTy).Contents (Elt F)),
    StableHlo.binary main_call1_v3 main_call1_v5 main_call1_v6 ((cmpi .ne) : (⟨S8388608, .i32⟩ : BufTy).Contents (Elt F) → (⟨S8388608, .i32⟩ : BufTy).Contents (Elt F) → (⟨S8388608, .i1⟩ : BufTy).Contents (Elt F)),
    StableHlo.unary main_call1_v0 main_call1_v7 ((broadcastInDim S8388608 ![] bcast_S_S8388608) : (⟨S_, .i32⟩ : BufTy).Contents (Elt F) → (⟨S8388608, .i32⟩ : BufTy).Contents (Elt F)),
    StableHlo.binary main_v10 main_call1_v7 main_call1_v8 (Host.remsi : (⟨S8388608, .i32⟩ : BufTy).Contents (Elt F) → (⟨S8388608, .i32⟩ : BufTy).Contents (Elt F) → (⟨S8388608, .i32⟩ : BufTy).Contents (Elt F)),
    StableHlo.nullary main_call1_c ((constantI S_ 32 0#32) : (⟨S_, .i32⟩ : BufTy).Contents (Elt F)),
    StableHlo.unary main_call1_c main_call1_v9 ((broadcastInDim S8388608 ![] bcast_S_S8388608) : (⟨S_, .i32⟩ : BufTy).Contents (Elt F) → (⟨S8388608, .i32⟩ : BufTy).Contents (Elt F)),
    StableHlo.binary main_call1_v8 main_call1_v9 main_call1_v10 ((cmpi .ne) : (⟨S8388608, .i32⟩ : BufTy).Contents (Elt F) → (⟨S8388608, .i32⟩ : BufTy).Contents (Elt F) → (⟨S8388608, .i1⟩ : BufTy).Contents (Elt F)),
    StableHlo.binary main_call1_v6 main_call1_v10 main_call1_v11 (andi : (⟨S8388608, .i1⟩ : BufTy).Contents (Elt F) → (⟨S8388608, .i1⟩ : BufTy).Contents (Elt F) → (⟨S8388608, .i1⟩ : BufTy).Contents (Elt F)),
    StableHlo.nullary main_call1_c_0 ((constantI S_ 32 1#32) : (⟨S_, .i32⟩ : BufTy).Contents (Elt F)),
    StableHlo.unary main_call1_c_0 main_call1_v12 ((broadcastInDim S8388608 ![] bcast_S_S8388608) : (⟨S_, .i32⟩ : BufTy).Contents (Elt F) → (⟨S8388608, .i32⟩ : BufTy).Contents (Elt F)),
    StableHlo.binary main_call1_v2 main_call1_v12 main_call1_v13 (subi : (⟨S8388608, .i32⟩ : BufTy).Contents (Elt F) → (⟨S8388608, .i32⟩ : BufTy).Contents (Elt F) → (⟨S8388608, .i32⟩ : BufTy).Contents (Elt F)),
    StableHlo.ternary main_call1_v11 main_call1_v13 main_call1_v2 main_v11 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)) ]

/-- Stretch 5. -/
abbrev seg5 : List (HloOp τ sig (Elt F)) :=
  [
    StableHlo.binary main_v11 main_v6 main_v12 (subi : (⟨S8388608, .i32⟩ : BufTy).Contents (Elt F) → (⟨S8388608, .i32⟩ : BufTy).Contents (Elt F) → (⟨S8388608, .i32⟩ : BufTy).Contents (Elt F)),
    StableHlo.nullary main_call2_call0_c ((constantI S_ 32 0#32) : (⟨S_, .i32⟩ : BufTy).Contents (Elt F)),
    StableHlo.unary main_call2_call0_c main_call2_call0_v0 ((broadcastInDim S_ ![] bcast_S_S_) : (⟨S_, .i32⟩ : BufTy).Contents (Elt F) → (⟨S_, .i32⟩ : BufTy).Contents (Elt F)),
    StableHlo.binary main_v12 main_call2_call0_v0 main_v13 ((fun x v => Host.reduceWindow IntOp.addi ![8388608] ![1] ![8388607] ![0] x v reduceWindows_S8388608_S8388608_w8388608s1p8388607_0 h_S_) : (⟨S8388608, .i32⟩ : BufTy).Contents (Elt F) → (⟨S_, .i32⟩ : BufTy).Contents (Elt F) → (⟨S8388608, .i32⟩ : BufTy).Contents (Elt F)),
    StableHlo.binary main_v13 main_v12 main_v14 (subi : (⟨S8388608, .i32⟩ : BufTy).Contents (Elt F) → (⟨S8388608, .i32⟩ : BufTy).Contents (Elt F) → (⟨S8388608, .i32⟩ : BufTy).Contents (Elt F)),
    StableHlo.nullary main_c_6 (constantI S_ 32 0#32),
    StableHlo.nullary main_c_7 (constantI S_ 32 8388607#32),
    StableHlo.unary main_c_6 main_call3_v0 (id : (⟨S_, .i32⟩ : BufTy).Contents (Elt F) → (⟨S_, .i32⟩ : BufTy).Contents (Elt F)),
    StableHlo.unary main_call3_v0 main_call3_v1 ((broadcastInDim S8388608 ![] bcast_S_S8388608) : (⟨S_, .i32⟩ : BufTy).Contents (Elt F) → (⟨S8388608, .i32⟩ : BufTy).Contents (Elt F)),
    StableHlo.binary main_call3_v1 main_v14 main_call3_v2 (maxsi : (⟨S8388608, .i32⟩ : BufTy).Contents (Elt F) → (⟨S8388608, .i32⟩ : BufTy).Contents (Elt F) → (⟨S8388608, .i32⟩ : BufTy).Contents (Elt F)),
    StableHlo.unary main_c_7 main_call3_v3 (id : (⟨S_, .i32⟩ : BufTy).Contents (Elt F) → (⟨S_, .i32⟩ : BufTy).Contents (Elt F)),
    StableHlo.unary main_call3_v3 main_call3_v4 ((broadcastInDim S8388608 ![] bcast_S_S8388608) : (⟨S_, .i32⟩ : BufTy).Contents (Elt F) → (⟨S8388608, .i32⟩ : BufTy).Contents (Elt F)),
    StableHlo.binary main_call3_v4 main_call3_v2 main_v15 (minsi : (⟨S8388608, .i32⟩ : BufTy).Contents (Elt F) → (⟨S8388608, .i32⟩ : BufTy).Contents (Elt F) → (⟨S8388608, .i32⟩ : BufTy).Contents (Elt F)) ]

/-- Stretch 6. -/
abbrev seg6 : List (HloOp τ sig (Elt F)) :=
  [
    StableHlo.nullary main_c_8 (constantI S_ 32 0#32),
    StableHlo.unary main_c_8 main_v16 (broadcastInDim S8388608 ![] bcast_S_S8388608 : (⟨S_, .i32⟩ : BufTy).Contents (Elt F) → (⟨S8388608, .i32⟩ : BufTy).Contents (Elt F)),
    StableHlo.binary main_v15 main_v16 main_v17 (cmpi .slt : (⟨S8388608, .i32⟩ : BufTy).Contents (Elt F) → (⟨S8388608, .i32⟩ : BufTy).Contents (Elt F) → (⟨S8388608, .i1⟩ : BufTy).Contents (Elt F)),
    StableHlo.nullary main_c_9 (constantI S_ 32 8388608#32),
    StableHlo.unary main_c_9 main_v18 (broadcastInDim S8388608 ![] bcast_S_S8388608 : (⟨S_, .i32⟩ : BufTy).Contents (Elt F) → (⟨S8388608, .i32⟩ : BufTy).Contents (Elt F)),
    StableHlo.binary main_v15 main_v18 main_v19 (addi : (⟨S8388608, .i32⟩ : BufTy).Contents (Elt F) → (⟨S8388608, .i32⟩ : BufTy).Contents (Elt F) → (⟨S8388608, .i32⟩ : BufTy).Contents (Elt F)),
    StableHlo.ternary main_v17 main_v19 main_v15 main_v20 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)),
    StableHlo.unary main_v20 main_v21 (broadcastInDim S8388608x1 ![0] bcast_S8388608_S8388608x1_0 : (⟨S8388608, .i32⟩ : BufTy).Contents (Elt F) → (⟨S8388608x1, .i32⟩ : BufTy).Contents (Elt F)),
    StableHlo.binary main_arg2 main_v21 main_v22 ((fun x i => Host.gather gather_S8388608_S8388608x1_S8388608_n_0_n_n_0_1_1 x i) : (⟨S8388608, .i32⟩ : BufTy).Contents (Elt F) → (⟨S8388608x1, .i32⟩ : BufTy).Contents (Elt F) → (⟨S8388608, .i32⟩ : BufTy).Contents (Elt F)) ]

/-- Stretch 7. -/
abbrev seg7 : List (HloOp τ sig (Elt F)) :=
  [
    StableHlo.nullary main_c_10 (constantI S_ 32 0#32),
    StableHlo.unary main_c_10 main_v23 (broadcastInDim S8388608 ![] bcast_S_S8388608 : (⟨S_, .i32⟩ : BufTy).Contents (Elt F) → (⟨S8388608, .i32⟩ : BufTy).Contents (Elt F)),
    StableHlo.binary main_v12 main_v23 main_v24 (cmpi .eq : (⟨S8388608, .i32⟩ : BufTy).Contents (Elt F) → (⟨S8388608, .i32⟩ : BufTy).Contents (Elt F) → (⟨S8388608, .i1⟩ : BufTy).Contents (Elt F)),
    StableHlo.nullary main_c_11 (constantI S_ 32 1#32),
    StableHlo.unary main_c_11 main_v25 (broadcastInDim S8388608 ![] bcast_S_S8388608 : (⟨S_, .i32⟩ : BufTy).Contents (Elt F) → (⟨S8388608, .i32⟩ : BufTy).Contents (Elt F)),
    StableHlo.binary main_arg1 main_v25 main_v26 (addi : (⟨S8388608, .i32⟩ : BufTy).Contents (Elt F) → (⟨S8388608, .i32⟩ : BufTy).Contents (Elt F) → (⟨S8388608, .i32⟩ : BufTy).Contents (Elt F)),
    StableHlo.nullary main_c_12 (constantI S_ 32 16#32),
    StableHlo.unary main_c_12 main_v27 (broadcastInDim S8388608 ![] bcast_S_S8388608 : (⟨S_, .i32⟩ : BufTy).Contents (Elt F) → (⟨S8388608, .i32⟩ : BufTy).Contents (Elt F)),
    StableHlo.binary main_v22 main_v27 main_v28 (muli : (⟨S8388608, .i32⟩ : BufTy).Contents (Elt F) → (⟨S8388608, .i32⟩ : BufTy).Contents (Elt F) → (⟨S8388608, .i32⟩ : BufTy).Contents (Elt F)),
    StableHlo.ternary main_v24 main_v26 main_v28 main_v29 (select : (⟨S8388608, .i1⟩ : BufTy).Contents (Elt F) → (⟨S8388608, .i32⟩ : BufTy).Contents (Elt F) → (⟨S8388608, .i32⟩ : BufTy).Contents (Elt F) → (⟨S8388608, .i32⟩ : BufTy).Contents (Elt F)) ]

set_option maxRecDepth 16384 in
theorem tseg1_eq : (tseg1 : List (HloOp τ sig (Elt F))) = seg1 := rfl
set_option maxRecDepth 16384 in
theorem tseg2_eq : (tseg2 : List (HloOp τ sig (Elt F))) = seg2 := rfl
set_option maxRecDepth 16384 in
theorem tseg3_eq : (tseg3 : List (HloOp τ sig (Elt F))) = seg3 := rfl
set_option maxRecDepth 16384 in
theorem tseg4_eq : (tseg4 : List (HloOp τ sig (Elt F))) = seg4 := rfl
set_option maxRecDepth 16384 in
theorem tseg5_eq : (tseg5 : List (HloOp τ sig (Elt F))) = seg5 := rfl
set_option maxRecDepth 16384 in
theorem tseg6_eq : (tseg6 : List (HloOp τ sig (Elt F))) = seg6 := rfl
set_option maxRecDepth 16384 in
theorem tseg7_eq : (tseg7 : List (HloOp τ sig (Elt F))) = seg7 := rfl

theorem ops_split : (ops : List (HloOp τ sig (Elt F))) = seg1 ++ (seg2 ++ (seg3 ++ (seg4 ++ (seg5 ++ (seg6 ++ seg7))))) := by
  rw [ops_split_typed, tseg1_eq, tseg2_eq, tseg3_eq, tseg4_eq, tseg5_eq, tseg6_eq, tseg7_eq]

/-- The shape relations of the middle stretch, as this program proves them. -/
theorem midFacts : MidFacts :=
  ⟨reduceWindows_S8388608_S8388608_w8388608s1p8388607_0, h_S_, bcast_S_S_, bcast_S_S8388608, bcast_S8388608_S8388608x1_0⟩

/-- The gather's dimension record. -/
abbrev gd : GatherDims SN SN1 SN := gather_S8388608_S8388608x1_S8388608_n_0_n_n_0_1_1

/-! ## What each stretch leaves -/

/-- The two dividends and a floor division, on arrays. -/
def dividend1 (seq : IVec SN 32) : IVec SN 32 := fun i => IntOp.subi (IntOp.addi (IntOp.subi (seq i) 1#32) 16#32) 1#32
def dividend2 (seq : IVec SN 32) : IVec SN 32 := fun i => IntOp.subi (IntOp.addi (seq i) 16#32) 1#32
def floorDivHost (x : IVec SN 32) : IVec SN 32 := fun i => floorDiv16 .host signCases (signCases 16#32) (x i)

theorem first_dividend (X : Valuation τ sig (Elt F)) :
    after seg1 X (Proc.devRef .tc main_v5) = dividend1 (X (Proc.devRef .tc main_arg0) : IVec S8388608 32) := by
  after_results <;> rfl

theorem first_divisor (X : Valuation τ sig (Elt F)) :
    after seg1 X (Proc.devRef .tc main_c_2) = constantI S_ 32 16#32 := by
  after_results <;> rfl

set_option maxHeartbeats 2000000 in
theorem first_quotient (X : Valuation τ sig (Elt F)) (A : IVec S8388608 32)
    (hx : (X (Proc.devRef .tc main_v5) : IVec S8388608 32) = A) (hc : (X (Proc.devRef .tc main_c_2) : IVec S_ 32) = constantI S_ 32 16#32) :
    after seg2 X (Proc.devRef .tc main_v6) = floorDivHost A := by
  subst hx
  after_results
  rw [hc]
  try rfl

theorem second_dividend (X : Valuation τ sig (Elt F)) :
    after seg3 X (Proc.devRef .tc main_v10) = dividend2 (X (Proc.devRef .tc main_arg0) : IVec S8388608 32) := by
  after_results <;> rfl

theorem second_divisor (X : Valuation τ sig (Elt F)) :
    after seg3 X (Proc.devRef .tc main_c_5) = constantI S_ 32 16#32 := by
  after_results <;> rfl

set_option maxHeartbeats 2000000 in
theorem second_quotient (X : Valuation τ sig (Elt F)) (A : IVec S8388608 32)
    (hx : (X (Proc.devRef .tc main_v10) : IVec S8388608 32) = A) (hc : (X (Proc.devRef .tc main_c_5) : IVec S_ 32) = constantI S_ 32 16#32) :
    after seg4 X (Proc.devRef .tc main_v11) = floorDivHost A := by
  subst hx
  after_results
  rw [hc]
  try rfl

theorem flags_of (X : Valuation τ sig (Elt F)) (A B : IVec S8388608 32)
    (ha : (X (Proc.devRef .tc main_v11) : IVec S8388608 32) = A) (hb : (X (Proc.devRef .tc main_v6) : IVec S8388608 32) = B) :
    after seg5 X (Proc.devRef .tc main_v12) = fun i => IntOp.subi (A i) (B i) := by
  subst ha hb
  after_results <;> rfl

theorem clamped_of (X : Valuation τ sig (Elt F)) (A B : IVec S8388608 32)
    (ha : (X (Proc.devRef .tc main_v11) : IVec S8388608 32) = A) (hb : (X (Proc.devRef .tc main_v6) : IVec S8388608 32) = B) :
    after seg5 X (Proc.devRef .tc main_v15) = clampedIndex midFacts (fun i => IntOp.subi (A i) (B i)) := by
  subst ha hb
  after_results <;> rfl

theorem page_of (X : Valuation τ sig (Elt F)) (C D : IVec S8388608 32)
    (hc : (X (Proc.devRef .tc main_v15) : IVec S8388608 32) = C) (hd : (X (Proc.devRef .tc main_arg2) : IVec S8388608 32) = D) :
    after seg6 X (Proc.devRef .tc main_v22) = pageAt midFacts gd C D := by
  subst hc hd
  after_results <;> rfl

theorem out_of (X : Valuation τ sig (Elt F)) (N L P : IVec S8388608 32)
    (hn : (X (Proc.devRef .tc main_v12) : IVec S8388608 32) = N) (hl : (X (Proc.devRef .tc main_arg1) : IVec S8388608 32) = L) (hp : (X (Proc.devRef .tc main_v22) : IVec S8388608 32) = P) :
    after seg7 X (Proc.devRef .tc main_v29) = fun i => outLoc (N i) (L i) (P i) := by
  subst hn hl hp
  after_results <;> rfl

/-! ## What each stretch leaves alone -/

theorem k1_arg0 (X : Valuation τ sig (Elt F)) :
    after seg1 X (Proc.devRef .tc main_arg0) = X (Proc.devRef .tc main_arg0) := by
  after_results <;> rfl

theorem k2_arg0 (X : Valuation τ sig (Elt F)) :
    after seg2 X (Proc.devRef .tc main_arg0) = X (Proc.devRef .tc main_arg0) := by
  after_results <;> rfl

theorem k1_arg1 (X : Valuation τ sig (Elt F)) :
    after seg1 X (Proc.devRef .tc main_arg1) = X (Proc.devRef .tc main_arg1) := by
  after_results <;> rfl

theorem k2_arg1 (X : Valuation τ sig (Elt F)) :
    after seg2 X (Proc.devRef .tc main_arg1) = X (Proc.devRef .tc main_arg1) := by
  after_results <;> rfl

theorem k3_arg1 (X : Valuation τ sig (Elt F)) :
    after seg3 X (Proc.devRef .tc main_arg1) = X (Proc.devRef .tc main_arg1) := by
  after_results <;> rfl

theorem k4_arg1 (X : Valuation τ sig (Elt F)) :
    after seg4 X (Proc.devRef .tc main_arg1) = X (Proc.devRef .tc main_arg1) := by
  after_results <;> rfl

theorem k5_arg1 (X : Valuation τ sig (Elt F)) :
    after seg5 X (Proc.devRef .tc main_arg1) = X (Proc.devRef .tc main_arg1) := by
  after_results <;> rfl

theorem k6_arg1 (X : Valuation τ sig (Elt F)) :
    after seg6 X (Proc.devRef .tc main_arg1) = X (Proc.devRef .tc main_arg1) := by
  after_results <;> rfl

theorem k1_arg2 (X : Valuation τ sig (Elt F)) :
    after seg1 X (Proc.devRef .tc main_arg2) = X (Proc.devRef .tc main_arg2) := by
  after_results <;> rfl

theorem k2_arg2 (X : Valuation τ sig (Elt F)) :
    after seg2 X (Proc.devRef .tc main_arg2) = X (Proc.devRef .tc main_arg2) := by
  after_results <;> rfl

theorem k3_arg2 (X : Valuation τ sig (Elt F)) :
    after seg3 X (Proc.devRef .tc main_arg2) = X (Proc.devRef .tc main_arg2) := by
  after_results <;> rfl

theorem k4_arg2 (X : Valuation τ sig (Elt F)) :
    after seg4 X (Proc.devRef .tc main_arg2) = X (Proc.devRef .tc main_arg2) := by
  after_results <;> rfl

theorem k5_arg2 (X : Valuation τ sig (Elt F)) :
    after seg5 X (Proc.devRef .tc main_arg2) = X (Proc.devRef .tc main_arg2) := by
  after_results <;> rfl

theorem k3_v6 (X : Valuation τ sig (Elt F)) :
    after seg3 X (Proc.devRef .tc main_v6) = X (Proc.devRef .tc main_v6) := by
  after_results <;> rfl

theorem k4_v6 (X : Valuation τ sig (Elt F)) :
    after seg4 X (Proc.devRef .tc main_v6) = X (Proc.devRef .tc main_v6) := by
  after_results <;> rfl

theorem k6_v12 (X : Valuation τ sig (Elt F)) :
    after seg6 X (Proc.devRef .tc main_v12) = X (Proc.devRef .tc main_v12) := by
  after_results <;> rfl

end Cert.ReferenceIdeal.RunValue

end
-- ==== Proof.RefValue.lean ====
/-
  The reference's result array is the specification's.

  The contents after each of the seven stretches are named; the three argument arrays are carried forward unchanged,
  each intermediate array is read where its stretch leaves it and carried to the stretch that reads it, and the last
  stretch's output is `outLoc` of the flags, the last locations and the pages entry by entry: the allocator with the
  flags in the host's spelling (`resultHost`), which is the specification's on every word (`newPagesHost_eq`).
-/
import proofs.«158260_j32212254720221_1_alg».proof.Proof.RefStretches

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.PageArith Cert.PageSpec

variable {F : FTy → Type} [FloatOps F]

attribute [local irreducible] Host.gather Host.reduceWindow

/-- The allocator with the flags in the host's spelling. -/
def resultHost (seq last free : IVec SN 32) : IVec SN 32 :=
  fun i => outLoc (newPagesHost (seq i)) (last i) (pageStart midFacts gd (fun k => newPagesHost (seq k)) free i)

/-- The fold at the result buffer is that function of the argument buffers. -/
theorem out_eq (V : Valuation τ sig (Elt F)) :
    after ops V (Proc.devRef .tc main_v29) = resultHost (V (Proc.devRef .tc main_arg0) : IVec S8388608 32) (V (Proc.devRef .tc main_arg1) : IVec S8388608 32) (V (Proc.devRef .tc main_arg2) : IVec S8388608 32) := by
  rw [ops_split]
  simp only [after_append]
  generalize h1 : after seg1 V = V1
  generalize h2 : after seg2 V1 = V2
  generalize h3 : after seg3 V2 = V3
  generalize h4 : after seg4 V3 = V4
  generalize h5 : after seg5 V4 = V5
  generalize h6 : after seg6 V5 = V6
  -- the argument arrays, carried forward
  have arg0_1 : V1 (Proc.devRef .tc main_arg0) = V (Proc.devRef .tc main_arg0) := by rw [← h1]; exact (k1_arg0 V)
  have arg0_2 : V2 (Proc.devRef .tc main_arg0) = V (Proc.devRef .tc main_arg0) := by rw [← h2]; exact (k2_arg0 V1).trans arg0_1
  have arg1_1 : V1 (Proc.devRef .tc main_arg1) = V (Proc.devRef .tc main_arg1) := by rw [← h1]; exact (k1_arg1 V)
  have arg1_2 : V2 (Proc.devRef .tc main_arg1) = V (Proc.devRef .tc main_arg1) := by rw [← h2]; exact (k2_arg1 V1).trans arg1_1
  have arg1_3 : V3 (Proc.devRef .tc main_arg1) = V (Proc.devRef .tc main_arg1) := by rw [← h3]; exact (k3_arg1 V2).trans arg1_2
  have arg1_4 : V4 (Proc.devRef .tc main_arg1) = V (Proc.devRef .tc main_arg1) := by rw [← h4]; exact (k4_arg1 V3).trans arg1_3
  have arg1_5 : V5 (Proc.devRef .tc main_arg1) = V (Proc.devRef .tc main_arg1) := by rw [← h5]; exact (k5_arg1 V4).trans arg1_4
  have arg1_6 : V6 (Proc.devRef .tc main_arg1) = V (Proc.devRef .tc main_arg1) := by rw [← h6]; exact (k6_arg1 V5).trans arg1_5
  have arg2_1 : V1 (Proc.devRef .tc main_arg2) = V (Proc.devRef .tc main_arg2) := by rw [← h1]; exact (k1_arg2 V)
  have arg2_2 : V2 (Proc.devRef .tc main_arg2) = V (Proc.devRef .tc main_arg2) := by rw [← h2]; exact (k2_arg2 V1).trans arg2_1
  have arg2_3 : V3 (Proc.devRef .tc main_arg2) = V (Proc.devRef .tc main_arg2) := by rw [← h3]; exact (k3_arg2 V2).trans arg2_2
  have arg2_4 : V4 (Proc.devRef .tc main_arg2) = V (Proc.devRef .tc main_arg2) := by rw [← h4]; exact (k4_arg2 V3).trans arg2_3
  have arg2_5 : V5 (Proc.devRef .tc main_arg2) = V (Proc.devRef .tc main_arg2) := by rw [← h5]; exact (k5_arg2 V4).trans arg2_4
  -- the two dividends and quotients
  have d1 : V1 (Proc.devRef .tc main_v5) = dividend1 (V (Proc.devRef .tc main_arg0) : IVec S8388608 32) := by rw [← h1]; exact first_dividend V
  have c1 : V1 (Proc.devRef .tc main_c_2) = constantI S_ 32 16#32 := by rw [← h1]; exact first_divisor V
  have q1 : V2 (Proc.devRef .tc main_v6) = floorDivHost (dividend1 (V (Proc.devRef .tc main_arg0) : IVec S8388608 32)) := by rw [← h2]; exact first_quotient V1 _ d1 c1
  have d2 : V3 (Proc.devRef .tc main_v10) = dividend2 (V (Proc.devRef .tc main_arg0) : IVec S8388608 32) := by
    rw [← h3]; exact (second_dividend V2).trans (congrArg dividend2 arg0_2)
  have c2 : V3 (Proc.devRef .tc main_c_5) = constantI S_ 32 16#32 := by rw [← h3]; exact second_divisor V2
  have q1_3 : V3 (Proc.devRef .tc main_v6) = floorDivHost (dividend1 (V (Proc.devRef .tc main_arg0) : IVec S8388608 32)) := by rw [← h3]; exact (k3_v6 V2).trans q1
  have q2 : V4 (Proc.devRef .tc main_v11) = floorDivHost (dividend2 (V (Proc.devRef .tc main_arg0) : IVec S8388608 32)) := by rw [← h4]; exact second_quotient V3 _ d2 c2
  have q1_4 : V4 (Proc.devRef .tc main_v6) = floorDivHost (dividend1 (V (Proc.devRef .tc main_arg0) : IVec S8388608 32)) := by rw [← h4]; exact (k4_v6 V3).trans q1_3
  -- the flags, the clamped slots, the pages
  have n5 : V5 (Proc.devRef .tc main_v12) = (fun i => IntOp.subi (floorDivHost (dividend2 (V (Proc.devRef .tc main_arg0) : IVec S8388608 32)) i) (floorDivHost (dividend1 (V (Proc.devRef .tc main_arg0) : IVec S8388608 32)) i)) := by rw [← h5]; exact flags_of V4 _ _ q2 q1_4
  have cl5 : V5 (Proc.devRef .tc main_v15) = clampedIndex midFacts (fun i => IntOp.subi (floorDivHost (dividend2 (V (Proc.devRef .tc main_arg0) : IVec S8388608 32)) i) (floorDivHost (dividend1 (V (Proc.devRef .tc main_arg0) : IVec S8388608 32)) i)) := by rw [← h5]; exact clamped_of V4 _ _ q2 q1_4
  have p6 : V6 (Proc.devRef .tc main_v22) = pageAt midFacts gd (clampedIndex midFacts (fun i => IntOp.subi (floorDivHost (dividend2 (V (Proc.devRef .tc main_arg0) : IVec S8388608 32)) i) (floorDivHost (dividend1 (V (Proc.devRef .tc main_arg0) : IVec S8388608 32)) i))) (V (Proc.devRef .tc main_arg2) : IVec S8388608 32) := by
    rw [← h6]; exact page_of V5 _ _ cl5 arg2_5
  have n6 : V6 (Proc.devRef .tc main_v12) = (fun i => IntOp.subi (floorDivHost (dividend2 (V (Proc.devRef .tc main_arg0) : IVec S8388608 32)) i) (floorDivHost (dividend1 (V (Proc.devRef .tc main_arg0) : IVec S8388608 32)) i)) := by rw [← h6]; exact (k6_v12 V5).trans n5
  exact (out_of V6 _ _ _ n6 arg1_6 p6).trans rfl

/-- The host's spelling of the flags is the specification's on every word. -/
theorem resultHost_eq (seq last free : IVec SN 32) : resultHost seq last free = result midFacts gd seq last free := by
  unfold resultHost result
  simp only [newPagesHost_eq]

/-- Every weakly fair execution of the reference terminates with its result array at the specification's
    function of the argument arrays as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = result midFacts gd (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v29).trans ((out_eq _).trans (resultHost_eq _ _ _)),
       (h c main_arg0).trans (arg0_eq _), (h c main_arg1).trans (arg1_eq _), (h c main_arg2).trans (arg2_eq _)⟩)
    (run_main m ρ)

end Cert.ReferenceIdeal.RunValue

end
-- ==== Proof.lean ====
/-
  The certificate's claims for the page allocator.

  The kernel computes, for each request, whether it needs a new page (`newPages` of its length, in a first
  kernel over rows), where the new page comes from (the exclusive prefix sum of those flags, clamped, read in the
  free-page table — on the host), and the output location (`outLoc`, in a second kernel over rows); the reference
  computes the same three things with host operations on flat arrays.  All of it is wrapping 32-bit integer
  arithmetic, the same at every instance, and no precondition is needed: both programs end with the result array
  at `PageSpec.result` of the three argument arrays (Proof/KernelRun.lean and Proof/KernelValue.lean for the
  kernel, over Proof/RegionValue.lean for its two regions; Proof/RefRun.lean, Proof/RefStretches.lean and
  Proof/RefValue.lean for the reference), the one law
  between the two spellings being `PageArith.newPagesHost_eq`.  The frames of the two kernel programs are the
  generated ones; the reference's frame is its run with the result dropped; the ideal pass rewrote nothing.
-/
import proofs.«158260_j32212254720221_1_alg».proof.Defs
import proofs.«158260_j32212254720221_1_alg».proof.Proof.Gen.Kernel
import proofs.«158260_j32212254720221_1_alg».proof.Proof.Gen.Kernel.Frame
import proofs.«158260_j32212254720221_1_alg».proof.Proof.Gen.KernelIdeal
import proofs.«158260_j32212254720221_1_alg».proof.Proof.Gen.KernelIdeal.Frame
import proofs.«158260_j32212254720221_1_alg».proof.Proof.Gen.ReferenceIdeal
import proofs.«158260_j32212254720221_1_alg».proof.Proof.KernelRun
import proofs.«158260_j32212254720221_1_alg».proof.Proof.KernelValue
import proofs.«158260_j32212254720221_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunValue.run (F := Ideal) m ρ)

/-- The ideal pass rewrote no operation. -/
theorem preserves : Cert.preserves_Kernel_KernelIdeal := trivial

/-- The two gathers have one dimension record. -/
theorem gd_eq : Cert.ReferenceIdeal.RunValue.gd = Cert.KernelIdeal.FoldValue.gd := rfl

/-- Both programs end with the result array at the specification's function of the argument arrays. -/
theorem algebraic : Cert.algebraic_KernelIdeal_ReferenceIdeal := by
  intro m ρ m' ρ' _ hagree
  refine ⟨fun c => Cert.PageSpec.result Cert.KernelIdeal.FoldValue.midFacts Cert.KernelIdeal.FoldValue.gd
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.FoldValue.result_value (F := Ideal) m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.RunValue.run (F := Ideal) m' ρ')
    rw [(hagree c).1, (hagree c).2.1, (hagree c).2.2, gd_eq]

theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
